-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S50000x32 : Shape := ⟨2, ![50000, 32]⟩
abbrev S2000000x8 : Shape := ⟨2, ![2000000, 8]⟩
abbrev S2000000 : Shape := ⟨1, ![2000000]⟩
abbrev S72x64 : Shape := ⟨2, ![72, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S2000000x8 : S_.BroadcastsInDim S2000000x8 (![] : Fin 0 → Fin S2000000x8.rank)
  reducesTo_S2000000x8_S_d0_1 : S2000000x8.ReducesTo [0, 1] S_
  bcast_S_S72x64 : S_.BroadcastsInDim S72x64 (![] : Fin 0 → Fin S72x64.rank)
  reducesTo_S72x64_S_d0_1 : S72x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S64x64 : S_.BroadcastsInDim S64x64 (![] : Fin 0 → Fin S64x64.rank)
  reducesTo_S64x64_S_d0_1 : S64x64.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S64 .f32) (main_arg7 : FVec F S64x32 .f32) (main_arg8 : FVec F S32 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S72x64 1) : IVec S_ 1 :=
  let main_c_5 : IVec S_ 1 := constantI S_ 1 1#1
  let main_v17 : IVec S_ 1 := (fun x v => Host.reduce IntOp.andi x v reducesTo_S72x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x32 .f32) (main_arg1 : FVec F S50000x32 .f32) (main_arg2 : FVec F S2000000x8 .f32) (main_arg3 : IVec S2000000 32) (main_arg4 : IVec S2000000 32) (main_arg5 : FVec F S72x64 .f32) (main_arg6 : FVec F S64 .f32) (main_arg7 : FVec F S64x32 .f32) (main_arg8 : FVec F S32 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S2000000x8 .f32 := Host.absf main_arg2
  let main_cst_2 : FVec F S_ .f32 := constant S_ .f32 0x7F800000#32
  let main_v10 : FVec F S2000000x8 .f32 := broadcastInDim S2000000x8 ![] bcast_S_S2000000x8 main_cst_2
  let main_v11 : IVec S2000000x8 1 := cmpf .olt main_v9 main_v10
  let main_c_3 : IVec S_ 1 := constantI S_ 1 1#1
  let main_v12 : IVec S_ 1 := (fun x v => Host.reduce IntOp.andi x v reducesTo_S2000000x8_S_d0_1 h_S_) main_v11 main_c_3
  let main_v13 : IVec S_ 1 := andi main_v8 main_v12
  let main_v14 : FVec F S72x64 .f32 := Host.absf main_arg5
  let main_cst_4 : FVec F S_ .f32 := constant S_ .f32 0x7F800000#32
  let main_v15 : FVec F S72x64 .f32 := broadcastInDim S72x64 ![] bcast_S_S72x64 main_cst_4
  let main_v16 : IVec S72x64 1 := cmpf .olt main_v14 main_v15
  fn_part1 (F := F) main_arg6 main_arg7 main_arg8 main_arg9 main_arg10 main_arg11 main_arg12 main_arg13 main_arg14 main_v13 main_v16
-- ==== Kernel.lean ====
abbrev S100000x32 : Shape := ⟨2, ![100000, 32]⟩
abbrev S50000x32 : Shape := ⟨2, ![50000, 32]⟩
abbrev S2000000x8 : Shape := ⟨2, ![2000000, 8]⟩
abbrev S2000000 : Shape := ⟨1, ![2000000]⟩
abbrev S72x64 : Shape := ⟨2, ![72, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x32 : Shape := ⟨2, ![2000000, 32]⟩
abbrev S32x64 : Shape := ⟨2, ![32, 64]⟩
abbrev S8x64 : Shape := ⟨2, ![8, 64]⟩
abbrev S10000x32 : Shape := ⟨2, ![10000, 32]⟩
abbrev S10000x8 : Shape := ⟨2, ![10000, 8]⟩
abbrev S10000x64 : Shape := ⟨2, ![10000, 64]⟩
abbrev S1x64 : Shape := ⟨2, ![1, 64]⟩
abbrev S1x32 : Shape := ⟨2, ![1, 32]⟩
abbrev S100000x1 : Shape := ⟨2, ![100000, 1]⟩
abbrev S5000x32 : Shape := ⟨2, ![5000, 32]⟩
abbrev S5000x1 : Shape := ⟨2, ![5000, 1]⟩
abbrev S5000x64 : Shape := ⟨2, ![5000, 64]⟩
abbrev S1x1 : Shape := ⟨2, ![1, 1]⟩

abbrev nBuf : Space → Nat
  | .hbm => 55
  | .vmem => 27
  | .smem => 0
  | _ => 0

abbrev bufTy : (tb : Table) → Fin (tcTables nBuf tb) → BufTy
  | .hbm, ⟨0, _⟩ => ⟨S100000x32, .f32⟩
  | .hbm, ⟨1, _⟩ => ⟨S50000x32, .f32⟩
  | .hbm, ⟨2, _⟩ => ⟨S2000000x8, .f32⟩
  | .hbm, ⟨3, _⟩ => ⟨S2000000, .i32⟩
  | .hbm, ⟨4, _⟩ => ⟨S2000000, .i32⟩
  | .hbm, ⟨5, _⟩ => ⟨S72x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x32, .f32⟩
  | .hbm, ⟨24, _⟩ => ⟨S2000000x32, .bf16⟩
  | .hbm, ⟨25, _⟩ => ⟨S_, .i32⟩
  | .hbm, ⟨26, _⟩ => ⟨S2000000, .i32⟩
  | .hbm, ⟨27, _⟩ => ⟨S2000000, .i1⟩
  | .hbm, ⟨28, _⟩ => ⟨S_, .i32⟩
  | .hbm, ⟨29, _⟩ => ⟨S2000000, .i32⟩
  | .hbm, ⟨30, _⟩ => ⟨S2000000, .i32⟩
  | .hbm, ⟨31, _⟩ => ⟨S2000000, .i32⟩
  | .hbm, ⟨32, _⟩ => ⟨S2000000x1, .i32⟩
  | .hbm, ⟨33, _⟩ => ⟨S2000000x32, .f32⟩
  | .hbm, ⟨34, _⟩ => ⟨S2000000x32, .bf16⟩
  | .hbm, ⟨35, _⟩ => ⟨S2000000x8, .bf16⟩
  | .hbm, ⟨36, _⟩ => ⟨S32x64, .f32⟩
  | .hbm, ⟨37, _⟩ => ⟨S32x64, .bf16⟩
  | .hbm, ⟨38, _⟩ => ⟨S32x64, .f32⟩
  | .hbm, ⟨39, _⟩ => ⟨S32x64, .bf16⟩
  | .hbm, ⟨40, _⟩ => ⟨S8x64, .f32⟩
  | .hbm, ⟨41, _⟩ => ⟨S8x64, .bf16⟩
  | .hbm, ⟨42, _⟩ => ⟨S64x32, .bf16⟩
  | .hbm, ⟨43, _⟩ => ⟨S2000000x32, .f32⟩
  | .hbm, ⟨44, _⟩ => ⟨S_, .f32⟩
  | .hbm, ⟨45, _⟩ => ⟨S100000x32, .f32⟩
  | .hbm, ⟨46, _⟩ => ⟨S2000000x1, .i32⟩
  | .hbm, ⟨47, _⟩ => ⟨S100000x32, .f32⟩
  | .hbm, ⟨48, _⟩ => ⟨S32x64, .f32⟩
  | .hbm, ⟨49, _⟩ => ⟨S32x64, .bf16⟩
  | .hbm, ⟨50, _⟩ => ⟨S32x64, .f32⟩
  | .hbm, ⟨51, _⟩ => ⟨S32x64, .bf16⟩
  | .hbm, ⟨52, _⟩ => ⟨S64x32, .bf16⟩
  | .hbm, ⟨53, _⟩ => ⟨S32x1, .bf16⟩
  | .hbm, ⟨54, _⟩ => ⟨S100000x1, .f32⟩
  | .local _ .vmem, ⟨0, _⟩ => ⟨S10000x32, .bf16⟩
  | .local _ .vmem, ⟨1, _⟩ => ⟨S10000x32, .bf16⟩
  | .local _ .vmem, ⟨2, _⟩ => ⟨S10000x32, .bf16⟩
  | .local _ .vmem, ⟨3, _⟩ => ⟨S10000x32, .bf16⟩
  | .local _ .vmem, ⟨4, _⟩ => ⟨S10000x8, .bf16⟩
  | .local _ .vmem, ⟨5, _⟩ => ⟨S10000x8, .bf16⟩
  | .local _ .vmem, ⟨6, _⟩ => ⟨S32x64, .bf16⟩
  | .local _ .vmem, ⟨7, _⟩ => ⟨S32x64, .bf16⟩
  | .local _ .vmem, ⟨8, _⟩ => ⟨S8x64, .bf16⟩
  | .local _ .vmem, ⟨9, _⟩ => ⟨S64, .f32⟩
  | .local _ .vmem, ⟨10, _⟩ => ⟨S64x32, .bf16⟩
  | .local _ .vmem, ⟨11, _⟩ => ⟨S32, .f32⟩
  | .local _ .vmem, ⟨12, _⟩ => ⟨S10000x32, .f32⟩
  | .local _ .vmem, ⟨13, _⟩ => ⟨S10000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x64, .bf16⟩
  | .local _ .vmem, ⟨19, _⟩ => ⟨S32x64, .bf16⟩
  | .local _ .vmem, ⟨20, _⟩ => ⟨S64, .f32⟩
  | .local _ .vmem, ⟨21, _⟩ => ⟨S64x32, .bf16⟩
  | .local _ .vmem, ⟨22, _⟩ => ⟨S32, .f32⟩
  | .local _ .vmem, ⟨23, _⟩ => ⟨S32x1, .bf16⟩
  | .local _ .vmem, ⟨24, _⟩ => ⟨S1, .f32⟩
  | .local _ .vmem, ⟨25, _⟩ => ⟨S5000x1, .f32⟩
  | .local _ .vmem, ⟨26, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bitsLt_bf16_f32 : FTy.bits .bf16 < FTy.bits .f32
  slices_S72x64_S32x64_0_0 : S72x64.Slices ![0, 0] S32x64
  slices_S72x64_S32x64_32_0 : S72x64.Slices ![32, 0] S32x64
  slices_S72x64_S8x64_64_0 : S72x64.Slices ![64, 0] S8x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  bcast_S_S100000x32 : S_.BroadcastsInDim S100000x32 (![] : Fin 0 → Fin S100000x32.rank)
  slices_S64x64_S32x64_0_0 : S64x64.Slices ![0, 0] S32x64
  slices_S64x64_S32x64_32_0 : S64x64.Slices ![32, 0] S32x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S1x64_S5000x64 : S1x64.Broadcasts S5000x64
  broadcasts_S1x32_S5000x32 : S1x32.Broadcasts S5000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x32_S2000000x1_S2000000x32_1_0_n_n_0_1_132_wf : GatherDims.WF S100000x32 S2000000x1 S2000000x32 [1] [0] [] [0] [] 1 ![1, 32]
  gather_S50000x32_S2000000x1_S2000000x32_1_0_n_n_0_1_132_wf : GatherDims.WF S50000x32 S2000000x1 S2000000x32 [1] [0] [] [0] [] 1 ![1, 32]
  dot_S10000x32_S32x64_S10000x64_1_0_0_1_n_n_wf : DotDims.WF S10000x32 S32x64 S10000x64 [1] [0] [0] [1] [] []
  dot_S10000x8_S8x64_S10000x64_1_0_0_1_n_n_wf : DotDims.WF S10000x8 S8x64 S10000x64 [1] [0] [0] [1] [] []
  dot_S10000x64_S64x32_S10000x32_1_0_0_1_n_n_wf : DotDims.WF S10000x64 S64x32 S10000x32 [1] [0] [0] [1] [] []
  scatter_S100000x32_S2000000x1_S2000000x32_1_0_0_1_wf : ScatterDims.WF S100000x32 S2000000x1 S2000000x32 [1] [0] [0] 1
  dot_S5000x32_S32x64_S5000x64_1_0_0_1_n_n_wf : DotDims.WF S5000x32 S32x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S2000000x32.size a
  hwx0_0 : ∀ i : grid0.Coords, EltTy.bits .bf16 = 32 ∨ (Rect.block (s := S2000000x32) S10000x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S2000000x32.size a
  hwx0_1 : ∀ i : grid0.Coords, EltTy.bits .bf16 = 32 ∨ (Rect.block (s := S2000000x32) S10000x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x8.size a ≤ S2000000x8.size a
  hwx0_2 : ∀ i : grid0.Coords, EltTy.bits .bf16 = 32 ∨ (Rect.block (s := S2000000x8) S10000x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .bf16 = 32 ∨ (Rect.block (s := S32x64) S32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .bf16 = 32 ∨ (Rect.block (s := S32x64) S32x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .bf16 = 32 ∨ (Rect.block (s := S8x64) S8x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x32.size a ≤ S2000000x32.size a
  hwx0_9 : ∀ i : grid0.Coords, EltTy.bits .f32 = 32 ∨ (Rect.block (s := S2000000x32) S10000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .bf16 = 32 ∨ (Rect.block (s := S32x64) S32x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .bf16 = 32 ∨ (Rect.block (s := S32x64) S32x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .bf16 = 32 ∨ (Rect.block (s := S64x32) S64x32.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .bf16 = 32 ∨ (Rect.block (s := S32x1) S32x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S100000x1.size a
  hwx1_9 : ∀ i : grid1.Coords, EltTy.bits .f32 = 32 ∨ (Rect.block (s := S100000x1) S5000x1.size (cc1_transform_9 i) (hinb1_9 i)).WholeWords (EltTy.packing .f32)

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def gather_S50000x32_S2000000x1_S2000000x32_1_0_n_n_0_1_132 : GatherDims S50000x32 S2000000x1 S2000000x32 where
  offsetDims := [1]
  collapsedSliceDims := [0]
  operandBatchingDims := []
  startIndicesBatchingDims := []
  startIndexMap := [0]
  indexVectorDim := 1
  sliceSizes := ![1, 32]
  wf := gather_S50000x32_S2000000x1_S2000000x32_1_0_n_n_0_1_132_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x8_S8x64_S10000x64_1_0_0_1_n_n : DotDims S10000x8 S8x64 S10000x64 where
  lhsContracting := [1]
  rhsContracting := [0]
  lhsNonContracting := [0]
  rhsNonContracting := [1]
  lhsBatch := []
  rhsBatch := []
  wf := dot_S10000x8_S8x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v7) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S10000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34) S5000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x32 : Shape := ⟨2, ![100000, 32]⟩
abbrev S50000x32 : Shape := ⟨2, ![50000, 32]⟩
abbrev S2000000x8 : Shape := ⟨2, ![2000000, 8]⟩
abbrev S2000000 : Shape := ⟨1, ![2000000]⟩
abbrev S72x64 : Shape := ⟨2, ![72, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x32 : Shape := ⟨2, ![2000000, 32]⟩
abbrev S2000000x72 : Shape := ⟨2, ![2000000, 72]⟩
abbrev S2000000x64 : Shape := ⟨2, ![2000000, 64]⟩
abbrev S1x64 : Shape := ⟨2, ![1, 64]⟩
abbrev S1x32 : Shape := ⟨2, ![1, 32]⟩
abbrev S100000x64 : Shape := ⟨2, ![100000, 64]⟩
abbrev S100000x1 : Shape := ⟨2, ![100000, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S50000x32, .f32⟩
  | .hbm, ⟨2, _⟩ => ⟨S2000000x8, .f32⟩
  | .hbm, ⟨3, _⟩ => ⟨S2000000, .i32⟩
  | .hbm, ⟨4, _⟩ => ⟨S2000000, .i32⟩
  | .hbm, ⟨5, _⟩ => ⟨S72x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x32, .f32⟩
  | .hbm, ⟨24, _⟩ => ⟨S_, .i32⟩
  | .hbm, ⟨25, _⟩ => ⟨S2000000, .i32⟩
  | .hbm, ⟨26, _⟩ => ⟨S2000000, .i1⟩
  | .hbm, ⟨27, _⟩ => ⟨S_, .i32⟩
  | .hbm, ⟨28, _⟩ => ⟨S2000000, .i32⟩
  | .hbm, ⟨29, _⟩ => ⟨S2000000, .i32⟩
  | .hbm, ⟨30, _⟩ => ⟨S2000000, .i32⟩
  | .hbm, ⟨31, _⟩ => ⟨S2000000x1, .i32⟩
  | .hbm, ⟨32, _⟩ => ⟨S2000000x32, .f32⟩
  | .hbm, ⟨33, _⟩ => ⟨S2000000x72, .f32⟩
  | .hbm, ⟨34, _⟩ => ⟨S2000000x64, .f32⟩
  | .hbm, ⟨35, _⟩ => ⟨S1x64, .f32⟩
  | .hbm, ⟨36, _⟩ => ⟨S2000000x64, .f32⟩
  | .hbm, ⟨37, _⟩ => ⟨S2000000x64, .f32⟩
  | .hbm, ⟨38, _⟩ => ⟨S_, .f32⟩
  | .hbm, ⟨39, _⟩ => ⟨S2000000x64, .f32⟩
  | .hbm, ⟨40, _⟩ => ⟨S2000000x64, .f32⟩
  | .hbm, ⟨41, _⟩ => ⟨S2000000x32, .f32⟩
  | .hbm, ⟨42, _⟩ => ⟨S1x32, .f32⟩
  | .hbm, ⟨43, _⟩ => ⟨S2000000x32, .f32⟩
  | .hbm, ⟨44, _⟩ => ⟨S2000000x32, .f32⟩
  | .hbm, ⟨45, _⟩ => ⟨S_, .f32⟩
  | .hbm, ⟨46, _⟩ => ⟨S2000000x32, .f32⟩
  | .hbm, ⟨47, _⟩ => ⟨S2000000x32, .f32⟩
  | .hbm, ⟨48, _⟩ => ⟨S_, .f32⟩
  | .hbm, ⟨49, _⟩ => ⟨S100000x32, .f32⟩
  | .hbm, ⟨50, _⟩ => ⟨S2000000x1, .i32⟩
  | .hbm, ⟨51, _⟩ => ⟨S100000x32, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000x32, .f32⟩
  | .hbm, ⟨64, _⟩ => ⟨S_, .f32⟩
  | .hbm, ⟨65, _⟩ => ⟨S100000x32, .f32⟩
  | .hbm, ⟨66, _⟩ => ⟨S100000x32, .f32⟩
  | .hbm, ⟨67, _⟩ => ⟨S100000x1, .f32⟩
  | .hbm, ⟨68, _⟩ => ⟨S1x1, .f32⟩
  | .hbm, ⟨69, _⟩ => ⟨S100000x1, .f32⟩
  | .hbm, ⟨70, _⟩ => ⟨S100000x1, .f32⟩
  | .hbm, ⟨71, _⟩ => ⟨S100000x1, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_cst : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call3_cst : Ref sig .tc := ⟨.hbm, 64, rfl⟩
abbrev main_call3_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x32_S2000000x32_S2000000x8_S2000000x72_d1 : Shape.Concatenates [S2000000x32, S2000000x32, S2000000x8] S2000000x72 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S_S100000x32 : S_.BroadcastsInDim S100000x32 (![] : Fin 0 → Fin S100000x32.rank)
  concatenates_S100000x32_S100000x32_S100000x64_d1 : Shape.Concatenates [S100000x32, S100000x32] S100000x64 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x32_S2000000x1_S2000000x32_1_0_n_n_0_1_132_wf : GatherDims.WF S100000x32 S2000000x1 S2000000x32 [1] [0] [] [0] [] 1 ![1, 32]
  gather_S50000x32_S2000000x1_S2000000x32_1_0_n_n_0_1_132_wf : GatherDims.WF S50000x32 S2000000x1 S2000000x32 [1] [0] [] [0] [] 1 ![1, 32]
  dot_S2000000x72_S72x64_S2000000x64_1_0_0_1_n_n_wf : DotDims.WF S2000000x72 S72x64 S2000000x64 [1] [0] [0] [1] [] []
  dot_S2000000x64_S64x32_S2000000x32_1_0_0_1_n_n_wf : DotDims.WF S2000000x64 S64x32 S2000000x32 [1] [0] [0] [1] [] []
  scatter_S100000x32_S2000000x1_S2000000x32_1_0_0_1_wf : ScatterDims.WF S100000x32 S2000000x1 S2000000x32 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def gather_S50000x32_S2000000x1_S2000000x32_1_0_n_n_0_1_132 : GatherDims S50000x32 S2000000x1 S2000000x32 where
  offsetDims := [1]
  collapsedSliceDims := [0]
  operandBatchingDims := []
  startIndicesBatchingDims := []
  startIndexMap := [0]
  indexVectorDim := 1
  sliceSizes := ![1, 32]
  wf := gather_S50000x32_S2000000x1_S2000000x32_1_0_n_n_0_1_132_wf
def dot_S2000000x72_S72x64_S2000000x64_1_0_0_1_n_n : DotDims S2000000x72 S72x64 S2000000x64 where
  lhsContracting := [1]
  rhsContracting := [0]
  lhsNonContracting := [0]
  rhsNonContracting := [1]
  lhsBatch := []
  rhsBatch := []
  wf := dot_S2000000x72_S72x64_S2000000x64_1_0_0_1_n_n_wf
def dot_S2000000x64_S64x32_S2000000x32_1_0_0_1_n_n : DotDims S2000000x64 S64x32 S2000000x32 where
  lhsContracting := [1]
  rhsContracting := [0]
  lhsNonContracting := [0]
  rhsNonContracting := [1]
  lhsBatch := []
  rhsBatch := []
  wf := dot_S2000000x64_S64x32_S2000000x32_1_0_0_1_n_n_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run with its result named.

  The program is two pipelined kernel regions between stretches of host operations. Its buffer contents at each
  boundary are a fold from the launch memory: after the first host stretch, after the edge kernel's write-backs,
  after the second host stretch, after the node kernel's write-backs. Every weakly fair execution terminates without
  a fault, leaves the arguments as launched, and leaves the result buffer holding what the last boundary's contents
  give it: the node kernel's output array after all its blocks were written back.
-/
import proofs.«181587_j81475529605800_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and each argument array as launched. -/
theorem run : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.RunValue

end
-- ==== Proof.DotFacts.lean ====
/-
  The six matrix products of the two kernel bodies contract the left operand's columns against the right operand's
  rows and have no batch axis. For each product's dimension record: the left operand's index at an output entry and
  a contraction position has the entry's row and the position as its column, and the right operand's index has the
  position as its row and the entry's column.
-/
import proofs.«181587_j81475529605800_2_alg».proof.Proof.Gen.KernelIdeal

noncomputable section

namespace Cert.KernelIdeal.DotFacts

open Cert.KernelIdeal Idealize.ShloMosaic

theorem l0_a (i : S10000x64.Idx) (q : dot_S10000x32_S32x64_S10000x64_1_0_0_1_n_n.contr.Idx) : (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem l1_a (i : S10000x64.Idx) (q : dot_S10000x32_S32x64_S10000x64_1_0_0_1_n_n.contr.Idx) : (dot_S10000x32_S32x64_S10000x64_1_0_0_1_n_n.lhsIdx i q 1).val = (q ⟨0, by decide⟩).val :=
  dot_S10000x32_S32x64_S10000x64_1_0_0_1_n_n.lhsIdx_val_of_single rfl i q
theorem r0_a (i : S10000x64.Idx) (q : dot_S10000x32_S32x64_S10000x64_1_0_0_1_n_n.contr.Idx) : (dot_S10000x32_S32x64_S10000x64_1_0_0_1_n_n.rhsIdx i q 0).val = (q ⟨0, by decide⟩).val :=
  dot_S10000x32_S32x64_S10000x64_1_0_0_1_n_n.rhsIdx_val_of_single rfl i q
theorem r1_a (i : S10000x64.Idx) (q : dot_S10000x32_S32x64_S10000x64_1_0_0_1_n_n.contr.Idx) : (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

theorem l0_b (i : S10000x64.Idx) (q : dot_S10000x8_S8x64_S10000x64_1_0_0_1_n_n.contr.Idx) : (dot_S10000x8_S8x64_S10000x64_1_0_0_1_n_n.lhsIdx i q 0).val = (i 0).val := by
  unfold DotDims.lhsIdx
  rw [dif_neg (show ¬(0 : Fin S10000x8.rank) ∈ dot_S10000x8_S8x64_S10000x64_1_0_0_1_n_n.lhsBatch by decide), dif_pos (show (0 : Fin S10000x8.rank) ∈ dot_S10000x8_S8x64_S10000x64_1_0_0_1_n_n.lhsNonContracting by decide)]
  rfl
theorem l1_b (i : S10000x64.Idx) (q : dot_S10000x8_S8x64_S10000x64_1_0_0_1_n_n.contr.Idx) : (dot_S10000x8_S8x64_S10000x64_1_0_0_1_n_n.lhsIdx i q 1).val = (q ⟨0, by decide⟩).val :=
  dot_S10000x8_S8x64_S10000x64_1_0_0_1_n_n.lhsIdx_val_of_single rfl i q
theorem r0_b (i : S10000x64.Idx) (q : dot_S10000x8_S8x64_S10000x64_1_0_0_1_n_n.contr.Idx) : (dot_S10000x8_S8x64_S10000x64_1_0_0_1_n_n.rhsIdx i q 0).val = (q ⟨0, by decide⟩).val :=
  dot_S10000x8_S8x64_S10000x64_1_0_0_1_n_n.rhsIdx_val_of_single rfl i q
theorem r1_b (i : S10000x64.Idx) (q : dot_S10000x8_S8x64_S10000x64_1_0_0_1_n_n.contr.Idx) : (dot_S10000x8_S8x64_S10000x64_1_0_0_1_n_n.rhsIdx i q 1).val = (i 1).val := by
  unfold DotDims.rhsIdx
  rw [dif_neg (show ¬(1 : Fin S8x64.rank) ∈ dot_S10000x8_S8x64_S10000x64_1_0_0_1_n_n.rhsBatch by decide), dif_pos (show (1 : Fin S8x64.rank) ∈ dot_S10000x8_S8x64_S10000x64_1_0_0_1_n_n.rhsNonContracting by decide)]
  rfl

theorem l0_c (i : S10000x32.Idx) (q : dot_S10000x64_S64x32_S10000x32_1_0_0_1_n_n.contr.Idx) : (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem l1_c (i : S10000x32.Idx) (q : dot_S10000x64_S64x32_S10000x32_1_0_0_1_n_n.contr.Idx) : (dot_S10000x64_S64x32_S10000x32_1_0_0_1_n_n.lhsIdx i q 1).val = (q ⟨0, by decide⟩).val :=
  dot_S10000x64_S64x32_S10000x32_1_0_0_1_n_n.lhsIdx_val_of_single rfl i q
theorem r0_c (i : S10000x32.Idx) (q : dot_S10000x64_S64x32_S10000x32_1_0_0_1_n_n.contr.Idx) : (dot_S10000x64_S64x32_S10000x32_1_0_0_1_n_n.rhsIdx i q 0).val = (q ⟨0, by decide⟩).val :=
  dot_S10000x64_S64x32_S10000x32_1_0_0_1_n_n.rhsIdx_val_of_single rfl i q
theorem r1_c (i : S10000x32.Idx) (q : dot_S10000x64_S64x32_S10000x32_1_0_0_1_n_n.contr.Idx) : (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

theorem l0_d (i : S5000x64.Idx) (q : dot_S5000x32_S32x64_S5000x64_1_0_0_1_n_n.contr.Idx) : (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem l1_d (i : S5000x64.Idx) (q : dot_S5000x32_S32x64_S5000x64_1_0_0_1_n_n.contr.Idx) : (dot_S5000x32_S32x64_S5000x64_1_0_0_1_n_n.lhsIdx i q 1).val = (q ⟨0, by decide⟩).val :=
  dot_S5000x32_S32x64_S5000x64_1_0_0_1_n_n.lhsIdx_val_of_single rfl i q
theorem r0_d (i : S5000x64.Idx) (q : dot_S5000x32_S32x64_S5000x64_1_0_0_1_n_n.contr.Idx) : (dot_S5000x32_S32x64_S5000x64_1_0_0_1_n_n.rhsIdx i q 0).val = (q ⟨0, by decide⟩).val :=
  dot_S5000x32_S32x64_S5000x64_1_0_0_1_n_n.rhsIdx_val_of_single rfl i q
theorem r1_d (i : S5000x64.Idx) (q : dot_S5000x32_S32x64_S5000x64_1_0_0_1_n_n.contr.Idx) : (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

theorem l0_e (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem l1_e (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
theorem r0_e (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
theorem r1_e (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

theorem l0_f (i : S5000x1.Idx) (q : dot_S5000x32_S32x1_S5000x1_1_0_0_1_n_n.contr.Idx) : (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem l1_f (i : S5000x1.Idx) (q : dot_S5000x32_S32x1_S5000x1_1_0_0_1_n_n.contr.Idx) : (dot_S5000x32_S32x1_S5000x1_1_0_0_1_n_n.lhsIdx i q 1).val = (q ⟨0, by decide⟩).val :=
  dot_S5000x32_S32x1_S5000x1_1_0_0_1_n_n.lhsIdx_val_of_single rfl i q
theorem r0_f (i : S5000x1.Idx) (q : dot_S5000x32_S32x1_S5000x1_1_0_0_1_n_n.contr.Idx) : (dot_S5000x32_S32x1_S5000x1_1_0_0_1_n_n.rhsIdx i q 0).val = (q ⟨0, by decide⟩).val :=
  dot_S5000x32_S32x1_S5000x1_1_0_0_1_n_n.rhsIdx_val_of_single rfl i q
theorem r1_f (i : S5000x1.Idx) (q : dot_S5000x32_S32x1_S5000x1_1_0_0_1_n_n.contr.Idx) : (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

end Cert.KernelIdeal.DotFacts

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.LibBroadcastIn.lean ====
/-
  A `broadcast_in_dim` of a small shape, read at an index.

  The five forms a gather/scatter program and a row-wise normalisation meet: a scalar spread over any shape reads
  the scalar everywhere; a vector made into a one-column matrix reads the vector at the row; a one-column matrix
  spread over the columns reads its column at the row; a vector made into a one-row matrix reads the vector at the
  column; and a one-row matrix spread over the rows reads its row at the column. All are general in the extents.
-/
import Idealize.ShloMosaic.Lib.Pipeline.Value
import Idealize.ShloMosaic.Lib.ValueIdx

noncomputable section

namespace Cert.LibBroadcastIn

open Idealize.ShloMosaic Idealize.ShloMosaic.ValueIdx

variable {α : Type}

/-- A scalar spread over any shape reads, everywhere, the scalar. -/
theorem scalar_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun a => a.elim0)

/-- `[a] → [a, 1]` along axis 0: entry (e, u) is the vector's entry e. -/
theorem col_apply {a : ℕ} (h : (⟨1, ![a]⟩ : Shape).BroadcastsInDim ⟨2, ![a, 1]⟩ (![0] : Fin 1 → Fin 2))
    (y : (⟨1, ![a]⟩ : Shape).Idx → α) (e : Fin a) (u : Fin 1) :
    broadcastInDim ⟨2, ![a, 1]⟩ ![0] h y (ix2 e u) = y (ix1 e) := by
  refine broadcastInDim_apply _ h y (ix2 e u) (ix1 e) fun ax => ?_
  match ax with
  | ⟨0, _⟩ =>
    show e.val = if a = 1 then 0 else e.val
    split
    · have := e.isLt; omega
    · rfl

/-- `[a, 1] → [a, b]`: entry (e, c) is the column's entry (e, 0). -/
theorem rows_apply {a b : ℕ} (h : (⟨2, ![a, 1]⟩ : Shape).BroadcastsInDim ⟨2, ![a, b]⟩ (![0, 1] : Fin 2 → Fin 2))
    (y : (⟨2, ![a, 1]⟩ : Shape).Idx → α) (e : Fin a) (c : Fin b) :
    broadcastInDim ⟨2, ![a, b]⟩ ![0, 1] h y (ix2 e c) = y (ix2 e (0 : Fin 1)) := by
  refine broadcastInDim_apply _ h y (ix2 e c) (ix2 e (0 : Fin 1)) fun ax => ?_
  match ax with
  | ⟨0, _⟩ =>
    show e.val = if a = 1 then 0 else e.val
    split
    · have := e.isLt; omega
    · rfl
  | ⟨1, _⟩ =>
    show (0 : ℕ) = if (1 : ℕ) = 1 then 0 else c.val
    rw [if_pos rfl]

/-- `[b] → [1, b]` along axis 1: entry (u, c) is the vector's entry c. -/
theorem row1_apply {b : ℕ} (h : (⟨1, ![b]⟩ : Shape).BroadcastsInDim ⟨2, ![1, b]⟩ (![1] : Fin 1 → Fin 2))
    (y : (⟨1, ![b]⟩ : Shape).Idx → α) (u : Fin 1) (c : Fin b) :
    broadcastInDim ⟨2, ![1, b]⟩ ![1] h y (ix2 u c) = y (ix1 c) := by
  refine broadcastInDim_apply _ h y (ix2 u c) (ix1 c) fun ax => ?_
  match ax with
  | ⟨0, _⟩ =>
    show c.val = if b = 1 then 0 else c.val
    split
    · have := c.isLt; omega
    · rfl

/-- `[1, b] → [a, b]`: entry (r, c) is the row's entry (0, c). -/
theorem tile_apply {a b : ℕ} (h : (⟨2, ![1, b]⟩ : Shape).BroadcastsInDim ⟨2, ![a, b]⟩ (![0, 1] : Fin 2 → Fin 2))
    (y : (⟨2, ![1, b]⟩ : Shape).Idx → α) (r : Fin a) (c : Fin b) :
    broadcastInDim ⟨2, ![a, b]⟩ ![0, 1] h y (ix2 r c) = y (ix2 (0 : Fin 1) c) := by
  refine broadcastInDim_apply _ h y (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end Cert.LibBroadcastIn

end
-- ==== Proof.LibBiasRow.lean ====
/-
  A bias row added to every row of a matrix, read at an entry.

  A kernel body adds a bias by casting the length-N vector to a 1×N matrix and broadcasting it over the M rows; the
  host adds it by two broadcasts in dimension, first to 1×N and then to M×N. Either way entry (p, c) of the result
  is entry c of the vector. Both lemmas are general in the extents and the element type.
-/
import Idealize.ShloMosaic.Lib.ValueLayout
import proofs.«181587_j81475529605800_2_alg».proof.Proof.LibBroadcastIn

noncomputable section

namespace Cert.LibBiasRow

open Idealize.ShloMosaic Idealize.ShloMosaic.ValueIdx

variable {α : Type}

/-- The kernel's spelling: a vector cast to one row and broadcast over the rows reads the vector at the column. -/
theorem cast_broadcast_apply {M N : ℕ} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ b hc) hb (ix2 p c) = b (ix1 c) :=
  (broadcastTo_1b_ab_apply _ hb p c).trans (shapeCast_a_1a_apply b hc 0 c)

/-- The host's spelling: a vector made one row and that row tiled over the rows reads the vector at the column. -/
theorem row_tile_apply {M N : ℕ} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (p : Fin M) (c : Fin N) :
    broadcastInDim ⟨2, ![M, N]⟩ ![0, 1] h2 (broadcastInDim ⟨2, ![1, N]⟩ ![1] h1 b) (ix2 p c) = b (ix1 c) :=
  (Cert.LibBroadcastIn.tile_apply h2 _ p c).trans (Cert.LibBroadcastIn.row1_apply h1 b 0 c)

end Cert.LibBiasRow

end
-- ==== Proof.LibSumSplit.lean ====
/-
  A sum over `Fin n` with `n = a + b` is the sum of its first `a` terms plus the sum of its last `b` terms,
  with the two halves indexed by `Fin a` and `Fin b` through explicit bounds (no cast of the index type is left
  in the statement). It holds in any additive commutative monoid: only associativity and commutativity of
  addition are used, so it applies to the extended reals as it stands, infinities included.
-/
import Mathlib.Algebra.BigOperators.Fin

namespace Cert.LibSumSplit

/-- `∑ k < a + b, g k = ∑ k < a, g k + ∑ k < b, g (a + k)`, the index type of the whole sum being `Fin n` for
    any `n` equal to `a + b`. -/
theorem sum_split {M : Type*} [AddCommMonoid M] (a b n : ℕ) (h : a + b = n) (g : Fin n → M) :
    ∑ k : Fin n, g k
      = ∑ k : Fin a, g ⟨k.val, by have := k.isLt; omega⟩ + ∑ k : Fin b, g ⟨a + k.val, by have := k.isLt; omega⟩ := by
  subst h
  exact Fin.sum_univ_add g

end Cert.LibSumSplit
-- ==== Proof.Spec.lean ====
/-
  The two multilayer perceptrons of the graph network, row by row, at the extended reals.

  An edge's features are the 32 features of its destination node, the 32 of its source node and its own 8; the
  edge network is two dense layers, each followed by a maximum with zero. A node's features are its own 32 and
  the 32 sums of its incoming edges' outputs; the node network is two such layers, a final dense layer of width
  one, and the logistic function.

  Each network is written twice. In the split form the first layer's weight matrix is given as its row blocks
  (one per group of features) and the layer is the sum of the blocks' products; in the joined form the feature
  groups are laid side by side in one row and multiplied by the whole matrix. The two forms agree because a sum
  over 72 (or 64) terms is the sum of its consecutive stretches: only associativity of addition is used, so the
  agreement holds at the infinities as well.
-/
import Idealize.ShloMosaic.PureOps.Ideal
import proofs.«181587_j81475529605800_2_alg».proof.Proof.LibSumSplit

noncomputable section

namespace Cert.Spec

open Idealize.ShloMosaic
open scoped BigOperators

/-- The float zero as the programs spell it. -/
abbrev z0 : EReal := Ideal.ofBits .f32 0x00000000#32

/-- Three feature groups side by side: 32, 32 and 8 wide. -/
def cat3 (u v : Fin 32 → EReal) (e : Fin 8 → EReal) : Fin 72 → EReal := fun k =>
  if h : k.val < 32 then u ⟨k.val, h⟩
  else if h2 : k.val < 64 then v ⟨k.val - 32, by omega⟩
  else e ⟨k.val - 64, by have := k.isLt; omega⟩

/-- Two feature groups side by side: 32 and 32 wide. -/
def cat2 (u a : Fin 32 → EReal) : Fin 64 → EReal := fun k =>
  if h : k.val < 32 then u ⟨k.val, h⟩ else a ⟨k.val - 32, by have := k.isLt; omega⟩

/-- The edge network in split form: the first layer as three block products. -/
def edgeK (u v : Fin 32 → EReal) (e : Fin 8 → EReal) (Wu Wv : Fin 32 → Fin 64 → EReal) (We : Fin 8 → Fin 64 → EReal)
    (b1 : Fin 64 → EReal) (W2 : Fin 64 → Fin 32 → EReal) (b2 : Fin 32 → EReal) (c : Fin 32) : EReal :=
  max ((∑ j : Fin 64, max ((((∑ k : Fin 32, u k * Wu k j) + (∑ k : Fin 32, v k * Wv k j)) + (∑ k : Fin 8, e k * We k j)) + b1 j) z0
    * W2 j c) + b2 c) z0

/-- The edge network in joined form: one product with the whole first weight matrix. -/
def edgeR (x : Fin 72 → EReal) (W1 : Fin 72 → Fin 64 → EReal) (b1 : Fin 64 → EReal) (W2 : Fin 64 → Fin 32 → EReal)
    (b2 : Fin 32 → EReal) (c : Fin 32) : EReal :=
  max ((∑ j : Fin 64, max ((∑ k : Fin 72, x k * W1 k j) + b1 j) z0 * W2 j c) + b2 c) z0

/-- The node network's value before the logistic function, in split form. -/
def nodeK (u a : Fin 32 → EReal) (Wu Wa : Fin 32 → Fin 64 → EReal) (b1 : Fin 64 → EReal) (W2 : Fin 64 → Fin 32 → EReal)
    (b2 : Fin 32 → EReal) (wt : Fin 32 → EReal) (bt : EReal) : EReal :=
  (∑ j : Fin 32, max ((∑ j' : Fin 64, max (((∑ k : Fin 32, u k * Wu k j') + (∑ k : Fin 32, a k * Wa k j')) + b1 j') z0
    * W2 j' j) + b2 j) z0 * wt j) + bt

/-- The node network's value before the logistic function, in joined form. -/
def nodeR (x : Fin 64 → EReal) (W1 : Fin 64 → Fin 64 → EReal) (b1 : Fin 64 → EReal) (W2 : Fin 64 → Fin 32 → EReal)
    (b2 : Fin 32 → EReal) (wt : Fin 32 → EReal) (bt : EReal) : EReal :=
  (∑ j : Fin 32, max ((∑ j' : Fin 64, max ((∑ k : Fin 64, x k * W1 k j') + b1 j') z0 * W2 j' j) + b2 j) z0 * wt j) + bt

/-- A sum over the 72 joined features against a matrix is the sum of the three groups' sums against its row
    blocks. -/
theorem sum_cat3 (u v : Fin 32 → EReal) (e : Fin 8 → EReal) (w : Fin 72 → EReal) :
    ∑ k : Fin 72, cat3 u v e k * w k
      = ((∑ k : Fin 32, u k * w ⟨k.val, by have := k.isLt; omega⟩) + (∑ k : Fin 32, v k * w ⟨32 + k.val, by have := k.isLt; omega⟩))
        + ∑ k : Fin 8, e k * w ⟨64 + k.val, by have := k.isLt; omega⟩ := by
  rw [Cert.LibSumSplit.sum_split 64 8 72 rfl, Cert.LibSumSplit.sum_split 32 32 64 rfl]
  refine congrArg₂ (· + ·) (congrArg₂ (· + ·) ?_ ?_) ?_
  · refine Finset.sum_congr rfl fun k _ => ?_
    have hk := k.isLt
    simp only [cat3]
    rw [dif_pos (show k.val < 32 from hk)]
  · refine Finset.sum_congr rfl fun k _ => ?_
    have hk := k.isLt
    simp only [cat3]
    rw [dif_neg (show ¬ 32 + k.val < 32 by omega), dif_pos (show 32 + k.val < 64 by omega)]
    refine congrArg₂ (· * ·) (congrArg v (Fin.ext ?_)) rfl
    show 32 + k.val - 32 = k.val
    omega
  · refine Finset.sum_congr rfl fun k _ => ?_
    have hk := k.isLt
    simp only [cat3]
    rw [dif_neg (show ¬ 64 + k.val < 32 by omega), dif_neg (show ¬ 64 + k.val < 64 by omega)]
    refine congrArg₂ (· * ·) (congrArg e (Fin.ext ?_)) rfl
    show 64 + k.val - 64 = k.val
    omega

/-- The same for two groups of 32. -/
theorem sum_cat2 (u a : Fin 32 → EReal) (w : Fin 64 → EReal) :
    ∑ k : Fin 64, cat2 u a k * w k
      = (∑ k : Fin 32, u k * w ⟨k.val, by have := k.isLt; omega⟩) + ∑ k : Fin 32, a k * w ⟨32 + k.val, by have := k.isLt; omega⟩ := by
  rw [Cert.LibSumSplit.sum_split 32 32 64 rfl]
  refine congrArg₂ (· + ·) ?_ ?_
  · refine Finset.sum_congr rfl fun k _ => ?_
    have hk := k.isLt
    simp only [cat2]
    rw [dif_pos (show k.val < 32 from hk)]
  · refine Finset.sum_congr rfl fun k _ => ?_
    have hk := k.isLt
    simp only [cat2]
    rw [dif_neg (show ¬ 32 + k.val < 32 by omega)]
    refine congrArg₂ (· * ·) (congrArg a (Fin.ext ?_)) rfl
    show 32 + k.val - 32 = k.val
    omega

/-- The split edge network on the row blocks of a weight matrix is the joined edge network on the matrix. -/
theorem edge_eq (u v : Fin 32 → EReal) (e : Fin 8 → EReal) (W1 : Fin 72 → Fin 64 → EReal) (b1 : Fin 64 → EReal)
    (W2 : Fin 64 → Fin 32 → EReal) (b2 : Fin 32 → EReal) (c : Fin 32) :
    edgeK u v e (fun k => W1 ⟨k.val, by have := k.isLt; omega⟩) (fun k => W1 ⟨32 + k.val, by have := k.isLt; omega⟩)
        (fun k => W1 ⟨64 + k.val, by have := k.isLt; omega⟩) b1 W2 b2 c
      = edgeR (cat3 u v e) W1 b1 W2 b2 c := by
  unfold edgeK edgeR
  refine congrArg (fun s => max (s + b2 c) z0) (Finset.sum_congr rfl fun j _ => ?_)
  rw [sum_cat3 u v e (fun k => W1 k j)]

/-- The split node network on the row blocks of a weight matrix is the joined node network on the matrix. -/
theorem node_eq (u a : Fin 32 → EReal) (W1 : Fin 64 → Fin 64 → EReal) (b1 : Fin 64 → EReal)
    (W2 : Fin 64 → Fin 32 → EReal) (b2 : Fin 32 → EReal) (wt : Fin 32 → EReal) (bt : EReal) :
    nodeK u a (fun k => W1 ⟨k.val, by have := k.isLt; omega⟩) (fun k => W1 ⟨32 + k.val, by have := k.isLt; omega⟩) b1 W2 b2 wt bt
      = nodeR (cat2 u a) W1 b1 W2 b2 wt bt := by
  unfold nodeK nodeR
  refine congrArg (· + bt) (Finset.sum_congr rfl fun j _ => ?_)
  refine congrArg (fun s => max (s + b2 j) z0 * wt j) (Finset.sum_congr rfl fun j' _ => ?_)
  rw [sum_cat2 u a (fun k => W1 k j')]

end Cert.Spec

end
-- ==== Proof.Pay.lean ====
/-
  What the two kernel bodies store, read at one entry.

  The edge kernel's block result at row p and column c depends only on row p of its three input blocks and on the
  whole weight and bias blocks: it is the split-form edge network of those rows. The node kernel's block result at
  row p is the logistic function of the split-form node network of row p of its two input blocks. Each matrix
  product into a zero accumulator is the plain sum over its contraction positions; a bias is read at the column;
  changes of float format are the identity at the extended reals.
-/
import proofs.«181587_j81475529605800_2_alg».proof.Proof.Gen.KernelIdeal.Skeleton
import proofs.«181587_j81475529605800_2_alg».proof.Proof.DotFacts
import proofs.«181587_j81475529605800_2_alg».proof.Proof.LibPlainMatmul
import proofs.«181587_j81475529605800_2_alg».proof.Proof.LibBiasRow
import proofs.«181587_j81475529605800_2_alg».proof.Proof.Spec
import Idealize.ShloMosaic.Lib.Pipeline.Value

set_option maxRecDepth 16384

noncomputable section

namespace Cert.KernelIdeal.Pay

open Cert.KernelIdeal Cert.KernelIdeal.Gen Idealize.ShloMosaic Idealize.ShloMosaic.ValueIdx Cert.Spec
open scoped BigOperators

/-- The 10000×32 by 32×64 product into zero, at an entry: the sum over the 32 contraction positions. -/
theorem mm_a {φ₁ φ₂ : FTy} (X : FVec Ideal S10000x32 φ₁) (W : FVec Ideal S32x64 φ₂) (p : Fin 10000) (j : Fin 64) :
    matmul dot_S10000x32_S32x64_S10000x64_1_0_0_1_n_n none X W (constant S10000x64 .f32 0x00000000#32) (ix2 p j) = ∑ k : Fin 32, X (ix2 p k) * W (ix2 k j) :=
  Cert.LibPlainMatmul.matmul_zero_ix2 dot_S10000x32_S32x64_S10000x64_1_0_0_1_n_n none rfl rfl DotFacts.l0_a DotFacts.l1_a DotFacts.r0_a DotFacts.r1_a X W p j

/-- The 10000×8 by 8×64 product into zero, at an entry: the sum over the 8 contraction positions. -/
theorem mm_b {φ₁ φ₂ : FTy} (X : FVec Ideal S10000x8 φ₁) (W : FVec Ideal S8x64 φ₂) (p : Fin 10000) (j : Fin 64) :
    matmul dot_S10000x8_S8x64_S10000x64_1_0_0_1_n_n none X W (constant S10000x64 .f32 0x00000000#32) (ix2 p j) = ∑ k : Fin 8, X (ix2 p k) * W (ix2 k j) :=
  Cert.LibPlainMatmul.matmul_zero_ix2 dot_S10000x8_S8x64_S10000x64_1_0_0_1_n_n none rfl rfl DotFacts.l0_b DotFacts.l1_b DotFacts.r0_b DotFacts.r1_b X W p j

/-- The 10000×64 by 64×32 product into zero, at an entry: the sum over the 64 contraction positions. -/
theorem mm_c {φ₁ φ₂ : FTy} (X : FVec Ideal S10000x64 φ₁) (W : FVec Ideal S64x32 φ₂) (p : Fin 10000) (j : Fin 32) :
    matmul dot_S10000x64_S64x32_S10000x32_1_0_0_1_n_n none X W (constant S10000x32 .f32 0x00000000#32) (ix2 p j) = ∑ k : Fin 64, X (ix2 p k) * W (ix2 k j) :=
  Cert.LibPlainMatmul.matmul_zero_ix2 dot_S10000x64_S64x32_S10000x32_1_0_0_1_n_n none rfl rfl DotFacts.l0_c DotFacts.l1_c DotFacts.r0_c DotFacts.r1_c X W p j

/-- The 5000×32 by 32×64 product into zero, at an entry: the sum over the 32 contraction positions. -/
theorem mm_d {φ₁ φ₂ : FTy} (X : FVec Ideal S5000x32 φ₁) (W : FVec Ideal S32x64 φ₂) (p : Fin 5000) (j : Fin 64) :
    matmul dot_S5000x32_S32x64_S5000x64_1_0_0_1_n_n none X W (constant S5000x64 .f32 0x00000000#32) (ix2 p j) = ∑ k : Fin 32, X (ix2 p k) * W (ix2 k j) :=
  Cert.LibPlainMatmul.matmul_zero_ix2 dot_S5000x32_S32x64_S5000x64_1_0_0_1_n_n none rfl rfl DotFacts.l0_d DotFacts.l1_d DotFacts.r0_d DotFacts.r1_d X W p j

/-- The 5000×64 by 64×32 product into zero, at an entry: the sum over the 64 contraction positions. -/
theorem mm_e {φ₁ φ₂ : FTy} (X : FVec Ideal S5000x64 φ₁) (W : FVec Ideal S64x32 φ₂) (p : Fin 5000) (j : Fin 32) :
    matmul dot_S5000x64_S64x32_S5000x32_1_0_0_1_n_n none X W (constant S5000x32 .f32 0x00000000#32) (ix2 p j) = ∑ k : Fin 64, X (ix2 p k) * W (ix2 k j) :=
  Cert.LibPlainMatmul.matmul_zero_ix2 dot_S5000x64_S64x32_S5000x32_1_0_0_1_n_n none rfl rfl DotFacts.l0_e DotFacts.l1_e DotFacts.r0_e DotFacts.r1_e X W p j

/-- The 5000×32 by 32×1 product into zero, at an entry: the sum over the 32 contraction positions. -/
theorem mm_f {φ₁ φ₂ : FTy} (X : FVec Ideal S5000x32 φ₁) (W : FVec Ideal S32x1 φ₂) (p : Fin 5000) (j : Fin 1) :
    matmul dot_S5000x32_S32x1_S5000x1_1_0_0_1_n_n none X W (constant S5000x1 .f32 0x00000000#32) (ix2 p j) = ∑ k : Fin 32, X (ix2 p k) * W (ix2 k j) :=
  Cert.LibPlainMatmul.matmul_zero_ix2 dot_S5000x32_S32x1_S5000x1_1_0_0_1_n_n none rfl rfl DotFacts.l0_f DotFacts.l1_f DotFacts.r0_f DotFacts.r1_f X W p j

/-- The edge kernel's stored value at row p, column c: the split-form edge network of row p of the gathered
    destination features, the gathered source features and the edge features. -/
theorem edge_apply (v0 v2 : FVec Ideal S10000x32 .bf16) (v4 : FVec Ideal S10000x8 .bf16) (v6 v8 : FVec Ideal S32x64 .bf16)
    (v10 : FVec Ideal S8x64 .bf16) (v17 : FVec Ideal S64 .f32) (v24 : FVec Ideal S64x32 .bf16) (v27 : FVec Ideal S32 .f32)
    (p : Fin 10000) (c : Fin 32) :
    k0_pay1 (F := Ideal) v0 v2 v4 v6 v8 v10 v17 v24 v27 (ix2 p c)
      = edgeK (fun k => v0 (ix2 p k)) (fun k => v2 (ix2 p k)) (fun k => v4 (ix2 p k)) (fun k j => v6 (ix2 k j))
          (fun k j => v8 (ix2 k j)) (fun k j => v10 (ix2 k j)) (fun j => v17 (ix1 j)) (fun j c => v24 (ix2 j c))
          (fun c => v27 (ix1 c)) c := by
  unfold k0_pay1 edgeK
  simp only [shapeCast_self]
  refine (congrArg₂ (fun s t => max (s + t) z0) (mm_c _ _ p c) (Cert.LibBiasRow.cast_broadcast_apply v27 _ _ p c)).trans ?_
  refine congrArg (fun s => max (s + v27 (ix1 c)) z0) (Finset.sum_congr rfl fun j _ => congrArg (· * v24 (ix2 j c)) ?_)
  exact congrArg₂ (fun s t => max (s + t) z0)
    (congrArg₂ (· + ·) (congrArg₂ (· + ·) (mm_a v0 v6 p j) (mm_a v2 v8 p j)) (mm_b v4 v10 p j))
    (Cert.LibBiasRow.cast_broadcast_apply v17 _ _ p j)

/-- The node kernel's stored value at row p: the logistic function of the split-form node network of row p of the
    node features and the summed edge outputs. -/
theorem node_apply (v0 v2 : FVec Ideal S5000x32 .f32) (v5 v7 : FVec Ideal S32x64 .bf16) (v12 : FVec Ideal S64 .f32)
    (v19 : FVec Ideal S64x32 .bf16) (v22 : FVec Ideal S32 .f32) (v29 : FVec Ideal S32x1 .bf16) (v32 : FVec Ideal S1 .f32)
    (p : Fin 5000) (u : Fin 1) :
    k1_pay1 (F := Ideal) v0 v2 v5 v7 v12 v19 v22 v29 v32 (ix2 p u)
      = Ideal.logistic (nodeK (fun k => v0 (ix2 p k)) (fun k => v2 (ix2 p k)) (fun k j => v5 (ix2 k j)) (fun k j => v7 (ix2 k j))
          (fun j => v12 (ix1 j)) (fun j c => v19 (ix2 j c)) (fun c => v22 (ix1 c)) (fun k => v29 (ix2 k u)) (v32 (ix1 u))) := by
  unfold k1_pay1 nodeK
  simp only [shapeCast_self]
  refine congrArg Ideal.logistic ?_
  refine (congrArg₂ (· + ·) (mm_f _ _ p u) (Cert.LibBiasRow.cast_broadcast_apply v32 _ _ p u)).trans ?_
  refine congrArg (· + v32 (ix1 u)) (Finset.sum_congr rfl fun j _ => congrArg (· * v29 (ix2 j u)) ?_)
  refine (congrArg₂ (fun s t => max (s + t) z0) (mm_e _ _ p j) (Cert.LibBiasRow.cast_broadcast_apply v22 _ _ p j)).trans ?_
  refine congrArg (fun s => max (s + v22 (ix1 j)) z0) (Finset.sum_congr rfl fun j' _ => congrArg (· * v19 (ix2 j' j)) ?_)
  exact congrArg₂ (fun s t => max (s + t) z0)
    (congrArg₂ (· + ·) (mm_d _ v5 p j') (mm_d _ v7 p j'))
    (Cert.LibBiasRow.cast_broadcast_apply v12 _ _ p j')

end Cert.KernelIdeal.Pay

end
-- ==== Proof.Region0.lean ====
/-
  The edge kernel's output array after all its blocks were written back.

  The grid has 200 points; point t handles edges 10000·t … 10000·t + 9999: it reads those rows of the three
  per-edge operands and the whole of each weight and bias operand, and writes those rows of the output. So entry
  (e, c) of the output array is the split-form edge network of row e of the per-edge operands, and the 200 row
  blocks cover the array.
-/
import proofs.«181587_j81475529605800_2_alg».proof.Proof.Gen.KernelIdeal.Frame
import proofs.«181587_j81475529605800_2_alg».proof.Proof.Pay
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The whole output array as a function of the whole operand arrays: entry (e, c) is the edge network of row e. -/
def edgeArr (A0 A1 : S2000000x32.Idx → EReal) (A2 : S2000000x8.Idx → EReal) (A3 A4 : S32x64.Idx → EReal)
    (A5 : S8x64.Idx → EReal) (A6 : S64.Idx → EReal) (A7 : S64x32.Idx → EReal) (A8 : S32.Idx → EReal) :
    S2000000x32.Idx → EReal := fun i =>
  edgeK (fun k => A0 (ix2 (⟨(i 0).val, (i 0).isLt⟩ : Fin 2000000) k)) (fun k => A1 (ix2 (⟨(i 0).val, (i 0).isLt⟩ : Fin 2000000) k))
    (fun k => A2 (ix2 (⟨(i 0).val, (i 0).isLt⟩ : Fin 2000000) k)) (fun k j => A3 (ix2 k j)) (fun k j => A4 (ix2 k j))
    (fun k j => A5 (ix2 k j)) (fun j => A6 (ix1 j)) (fun j c => A7 (ix2 j c)) (fun c => A8 (ix1 c)) (⟨(i 1).val, (i 1).isLt⟩ : Fin 32)

/-- Where each window's block sits at grid point t: the per-edge windows at row block t, the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- What point t writes back is block t of the whole-array function. -/
theorem flushed_eq (c : Dev nD) (t : Fin cfg0.N) :
    (dat0 V c).flushed 9 t = ((cfg0.win 9).blk t).view.read (Elt Ideal)
      (edgeArr (V c main_v7) (V c main_v15) (V c main_v16) (V c main_v18) (V c main_v20) (V c main_v22) (V c main_arg6)
        (V c main_v23) (V c main_arg8)) := by
  show (cfg0.win 9).cut (grid0.coords t) ((dat0 V c).after 9 t) = _
  rw [after0_9]
  unfold out0_9
  rw [View.canon_unit_zero hz2]
  simp only [View.ld_unit_zero (S := S10000x32) hz2, View.ld_unit_zero (S := S10000x8) hz2, View.ld_unit_zero (S := S32x64) hz2,
    View.ld_unit_zero (S := S8x64) hz2, View.ld_unit_zero (S := S64) hz1, View.ld_unit_zero (S := S64x32) hz2,
    View.ld_unit_zero (S := S32) hz1]
  obtain ⟨e00, e01, e10, e11, e20, e21, e30, e31, e40, e41, e50, e51, e60, e70, e71, e80, e90, e91⟩ := idx_facts t
  funext j
  obtain ⟨p, q, rfl⟩ : ∃ (p : Fin 10000) (q : Fin 32), j = ix2 p q := ⟨j 0, j 1, eq_ix2 j⟩
  refine (Pay.edge_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  have hp := p.isLt
  have hq := q.isLt
  have ht : t.val < 200 := lt_of_lt_of_eq t.isLt (show cfg0.N = 200 from N_0)
  show _ = edgeArr (V c main_v7) (V c main_v15) (V c main_v16) (V c main_v18) (V c main_v20) (V c main_v22) (V c main_arg6)
        (V c main_v23) (V c main_arg8) (((cfg0.win 9).blk t).view.emb (ix2 p q))
  have h9 : ((cfg0.win 9).blk t).view.emb (ix2 p q) = ix2 (⟨t.val * 10000 + p.val, by omega⟩ : Fin 2000000) q := by
    funext a; apply Fin.ext
    match a with
    | ⟨0, _⟩ => show win0_9.index t (0 : Fin 2) * 10000 + 1 * p.val = t.val * 10000 + p.val; omega
    | ⟨1, _⟩ => show win0_9.index t (1 : Fin 2) * 32 + 1 * q.val = q.val; omega
  rw [h9]
  have r0 : ∀ k : Fin 32, iblk0 V c 0 t (ix2 p k) = V c main_v7 (ix2 (⟨t.val * 10000 + p.val, by omega⟩ : Fin 2000000) k) := fun k => by
    show V c main_v7 (((cfg0.win 0).blk t).view.emb (ix2 p k)) = _
    refine congrArg (V c main_v7) (funext fun a => Fin.ext ?_)
    have hk := k.isLt
    match a with
    | ⟨0, _⟩ => show win0_0.index t (0 : Fin 2) * 10000 + 1 * p.val = t.val * 10000 + p.val; omega
    | ⟨1, _⟩ => show win0_0.index t (1 : Fin 2) * 32 + 1 * k.val = k.val; omega
  have r1 : ∀ k : Fin 32, iblk0 V c 1 t (ix2 p k) = V c main_v15 (ix2 (⟨t.val * 10000 + p.val, by omega⟩ : Fin 2000000) k) := fun k => by
    show V c main_v15 (((cfg0.win 1).blk t).view.emb (ix2 p k)) = _
    refine congrArg (V c main_v15) (funext fun a => Fin.ext ?_)
    have hk := k.isLt
    match a with
    | ⟨0, _⟩ => show win0_1.index t (0 : Fin 2) * 10000 + 1 * p.val = t.val * 10000 + p.val; omega
    | ⟨1, _⟩ => show win0_1.index t (1 : Fin 2) * 32 + 1 * k.val = k.val; omega
  have r2 : ∀ k : Fin 8, iblk0 V c 2 t (ix2 p k) = V c main_v16 (ix2 (⟨t.val * 10000 + p.val, by omega⟩ : Fin 2000000) k) := fun k => by
    show V c main_v16 (((cfg0.win 2).blk t).view.emb (ix2 p k)) = _
    refine congrArg (V c main_v16) (funext fun a => Fin.ext ?_)
    have hk := k.isLt
    match a with
    | ⟨0, _⟩ => show win0_2.index t (0 : Fin 2) * 10000 + 1 * p.val = t.val * 10000 + p.val; omega
    | ⟨1, _⟩ => show win0_2.index t (1 : Fin 2) * 8 + 1 * k.val = k.val; omega
  have r3 : ∀ (k : Fin 32) (j : Fin 64), iblk0 V c 3 t (ix2 k j) = V c main_v18 (ix2 k j) := fun k j => by
    show V c main_v18 (((cfg0.win 3).blk t).view.emb (ix2 k j)) = _
    refine congrArg (V c main_v18) (funext fun a => Fin.ext ?_)
    match a with
    | ⟨0, _⟩ => show win0_3.index t (0 : Fin 2) * 32 + 1 * k.val = k.val; omega
    | ⟨1, _⟩ => show win0_3.index t (1 : Fin 2) * 64 + 1 * j.val = j.val; omega
  have r4 : ∀ (k : Fin 32) (j : Fin 64), iblk0 V c 4 t (ix2 k j) = V c main_v20 (ix2 k j) := fun k j => by
    show V c main_v20 (((cfg0.win 4).blk t).view.emb (ix2 k j)) = _
    refine congrArg (V c main_v20) (funext fun a => Fin.ext ?_)
    match a with
    | ⟨0, _⟩ => show win0_4.index t (0 : Fin 2) * 32 + 1 * k.val = k.val; omega
    | ⟨1, _⟩ => show win0_4.index t (1 : Fin 2) * 64 + 1 * j.val = j.val; omega
  have r5 : ∀ (k : Fin 8) (j : Fin 64), iblk0 V c 5 t (ix2 k j) = V c main_v22 (ix2 k j) := fun k j => by
    show V c main_v22 (((cfg0.win 5).blk t).view.emb (ix2 k j)) = _
    refine congrArg (V c main_v22) (funext fun a => Fin.ext ?_)
    match a with
    | ⟨0, _⟩ => show win0_5.index t (0 : Fin 2) * 8 + 1 * k.val = k.val; omega
    | ⟨1, _⟩ => show win0_5.index t (1 : Fin 2) * 64 + 1 * j.val = j.val; omega
  have r6 : ∀ j : Fin 64, iblk0 V c 6 t (ix1 j) = V c main_arg6 (ix1 j) := fun j => by
    show V c main_arg6 (((cfg0.win 6).blk t).view.emb (ix1 j)) = _
    refine congrArg (V c main_arg6) (funext fun a => Fin.ext ?_)
    match a with
    | ⟨0, _⟩ => show win0_6.index t (0 : Fin 1) * 64 + 1 * j.val = j.val; omega
  have r7 : ∀ (j : Fin 64) (c' : Fin 32), iblk0 V c 7 t (ix2 j c') = V c main_v23 (ix2 j c') := fun j c' => by
    show V c main_v23 (((cfg0.win 7).blk t).view.emb (ix2 j c')) = _
    refine congrArg (V c main_v23) (funext fun a => Fin.ext ?_)
    match a with
    | ⟨0, _⟩ => show win0_7.index t (0 : Fin 2) * 64 + 1 * j.val = j.val; omega
    | ⟨1, _⟩ => show win0_7.index t (1 : Fin 2) * 32 + 1 * c'.val = c'.val; omega
  have r8 : ∀ c' : Fin 32, iblk0 V c 8 t (ix1 c') = V c main_arg8 (ix1 c') := fun c' => by
    show V c main_arg8 (((cfg0.win 8).blk t).view.emb (ix1 c')) = _
    refine congrArg (V c main_arg8) (funext fun a => Fin.ext ?_)
    match a with
    | ⟨0, _⟩ => show win0_8.index t (0 : Fin 1) * 32 + 1 * c'.val = c'.val; omega
  simp only [r0, r1, r2, r3, r4, r5, r6, r7, r8]
  rfl

/-- An index of the output array is in point t's block iff each coordinate is in the block's range on its axis. -/
theorem mem_blk (t : Fin cfg0.N) (i : S2000000x32.Idx) :
    i ∈ ((cfg0.win 9).blk t).view.set ↔ ∀ a : Fin 2, win0_9.index t a * S10000x32.size a ≤ (i a).val
      ∧ (i a).val < win0_9.index t a * S10000x32.size a + S10000x32.size a := by
  show i ∈ ((View.whole main_v24).slice (win0_9.rect t)).set ↔ _
  rw [View.set_slice_whole, Rect.mem_set_unit]
  exact Iff.rfl

/-- Every entry of the output array lies in the block of the point that handles its row. -/
theorem cover (i : S2000000x32.Idx) : ∃ t : Fin cfg0.N, (cfg0.win 9).flush t = true ∧ i ∈ ((cfg0.win 9).blk t).view.set := by
  have hi0 : (i 0).val < 2000000 := (i 0).isLt
  have hi1 : (i 1).val < 32 := (i 1).isLt
  have hN : cfg0.N = 200 := N_0
  let t : Fin cfg0.N := ⟨(i 0).val / 10000, by rw [hN]; omega⟩
  obtain ⟨e00, e01, e10, e11, e20, e21, e30, e31, e40, e41, e50, e51, e60, e70, e71, e80, e90, e91⟩ := idx_facts t
  have e90' : win0_9.index t (0 : Fin 2) = (i 0).val / 10000 := e90
  refine ⟨t, flush0_9 t, ?_⟩
  rw [mem_blk]
  intro a
  match a with
  | ⟨0, _⟩ =>
    show win0_9.index t (0 : Fin 2) * 10000 ≤ (i 0).val ∧ (i 0).val < win0_9.index t (0 : Fin 2) * 10000 + 10000
    omega
  | ⟨1, _⟩ =>
    show win0_9.index t (1 : Fin 2) * 32 ≤ (i 1).val ∧ (i 1).val < win0_9.index t (1 : Fin 2) * 32 + 32
    omega

/-- The output array after the run is the edge network of every row of the operands as the region found them. -/
theorem final (c : Dev nD) : (dat0 V c).arrAt 9 cfg0.N
    = edgeArr (V c main_v7) (V c main_v15) (V c main_v16) (V c main_v18) (V c main_v20) (V c main_v22) (V c main_arg6)
        (V c main_v23) (V c main_arg8) :=
  (dat0 V c).arrAt_eq_of_cover 9 _ (fun t _ => flushed_eq V c t) cover

end Cert.KernelIdeal.Region0

end
-- ==== Proof.Region1.lean ====
/-
  The node kernel's output array after all its blocks were written back.

  The grid has 20 points; point t handles nodes 5000·t … 5000·t + 4999: it reads those rows of the node features and
  of the summed edge outputs, the whole of each weight and bias operand, and writes those rows of the one-column
  output. So entry (i, 0) of the output array is the logistic function of the split-form node network of row i, and
  the 20 row blocks cover the array.
-/
import proofs.«181587_j81475529605800_2_alg».proof.Proof.Gen.KernelIdeal.Frame
import proofs.«181587_j81475529605800_2_alg».proof.Proof.Pay
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The whole output array as a function of the whole operand arrays: entry (i, 0) is the logistic function of the
    node network of row i. -/
def nodeArr (A0 A1 : S100000x32.Idx → EReal) (A2 A3 : S32x64.Idx → EReal) (A4 : S64.Idx → EReal) (A5 : S64x32.Idx → EReal)
    (A6 : S32.Idx → EReal) (A7 : S32x1.Idx → EReal) (A8 : S1.Idx → EReal) : S100000x1.Idx → EReal := fun i =>
  Ideal.logistic (nodeK (fun k => A0 (ix2 (⟨(i 0).val, (i 0).isLt⟩ : Fin 100000) k)) (fun k => A1 (ix2 (⟨(i 0).val, (i 0).isLt⟩ : Fin 100000) k))
    (fun k j => A2 (ix2 k j)) (fun k j => A3 (ix2 k j)) (fun j => A4 (ix1 j)) (fun j c => A5 (ix2 j c)) (fun c => A6 (ix1 c))
    (fun k => A7 (ix2 k (0 : Fin 1))) (A8 (ix1 (0 : Fin 1))))

/-- Where each window's block sits at grid point t: the per-node windows at row block t, the others at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- What point t writes back is block t of the whole-array function. -/
theorem flushed_eq (c : Dev nD) (t : Fin cfg1.N) :
    (dat1 V c).flushed 9 t = ((cfg1.win 9).blk t).view.read (Elt Ideal)
      (nodeArr (V c main_arg0) (V c main_v27) (V c main_v29) (V c main_v31) (V c main_arg10) (V c main_v32) (V c main_arg12)
        (V c main_v33) (V c main_arg14)) := by
  show (cfg1.win 9).cut (grid1.coords t) ((dat1 V c).after 9 t) = _
  rw [after1_9]
  unfold out1_9
  rw [View.canon_unit_zero hz2]
  simp only [View.ld_unit_zero (S := S5000x32) hz2, View.ld_unit_zero (S := S32x64) hz2, View.ld_unit_zero (S := S64) hz1,
    View.ld_unit_zero (S := S64x32) hz2, View.ld_unit_zero (S := S32) hz1, View.ld_unit_zero (S := S32x1) hz2,
    View.ld_unit_zero (S := S1) hz1]
  obtain ⟨e00, e01, e10, e11, e20, e21, e30, e31, e40, e50, e51, e60, e70, e71, e80, e90, e91⟩ := idx_facts t
  funext j
  obtain ⟨p, q, rfl⟩ : ∃ (p : Fin 5000) (q : Fin 1), j = ix2 p q := ⟨j 0, j 1, eq_ix2 j⟩
  obtain rfl : q = 0 := Subsingleton.elim _ _
  refine (Pay.node_apply (iblk1 V c 0 t) (iblk1 V c 1 t) (iblk1 V c 2 t) (iblk1 V c 3 t) (iblk1 V c 4 t) (iblk1 V c 5 t)
    (iblk1 V c 6 t) (iblk1 V c 7 t) (iblk1 V c 8 t) p 0).trans ?_
  have hp := p.isLt
  have ht : t.val < 20 := lt_of_lt_of_eq t.isLt (show cfg1.N = 20 from N_1)
  show _ = nodeArr (V c main_arg0) (V c main_v27) (V c main_v29) (V c main_v31) (V c main_arg10) (V c main_v32) (V c main_arg12)
        (V c main_v33) (V c main_arg14) (((cfg1.win 9).blk t).view.emb (ix2 p (0 : Fin 1)))
  have h9 : ((cfg1.win 9).blk t).view.emb (ix2 p (0 : Fin 1)) = ix2 (⟨t.val * 5000 + p.val, by omega⟩ : Fin 100000) (0 : Fin 1) := by
    funext a; apply Fin.ext
    match a with
    | ⟨0, _⟩ => show win1_9.index t (0 : Fin 2) * 5000 + 1 * p.val = t.val * 5000 + p.val; omega
    | ⟨1, _⟩ => show win1_9.index t (1 : Fin 2) * 1 + 1 * 0 = 0; omega
  rw [h9]
  have r0 : ∀ k : Fin 32, iblk1 V c 0 t (ix2 p k) = V c main_arg0 (ix2 (⟨t.val * 5000 + p.val, by omega⟩ : Fin 100000) k) := fun k => by
    show V c main_arg0 (((cfg1.win 0).blk t).view.emb (ix2 p k)) = _
    refine congrArg (V c main_arg0) (funext fun a => Fin.ext ?_)
    have hk := k.isLt
    match a with
    | ⟨0, _⟩ => show win1_0.index t (0 : Fin 2) * 5000 + 1 * p.val = t.val * 5000 + p.val; omega
    | ⟨1, _⟩ => show win1_0.index t (1 : Fin 2) * 32 + 1 * k.val = k.val; omega
  have r1 : ∀ k : Fin 32, iblk1 V c 1 t (ix2 p k) = V c main_v27 (ix2 (⟨t.val * 5000 + p.val, by omega⟩ : Fin 100000) k) := fun k => by
    show V c main_v27 (((cfg1.win 1).blk t).view.emb (ix2 p k)) = _
    refine congrArg (V c main_v27) (funext fun a => Fin.ext ?_)
    have hk := k.isLt
    match a with
    | ⟨0, _⟩ => show win1_1.index t (0 : Fin 2) * 5000 + 1 * p.val = t.val * 5000 + p.val; omega
    | ⟨1, _⟩ => show win1_1.index t (1 : Fin 2) * 32 + 1 * k.val = k.val; omega
  have r2 : ∀ (k : Fin 32) (j : Fin 64), iblk1 V c 2 t (ix2 k j) = V c main_v29 (ix2 k j) := fun k j => by
    show V c main_v29 (((cfg1.win 2).blk t).view.emb (ix2 k j)) = _
    refine congrArg (V c main_v29) (funext fun a => Fin.ext ?_)
    match a with
    | ⟨0, _⟩ => show win1_2.index t (0 : Fin 2) * 32 + 1 * k.val = k.val; omega
    | ⟨1, _⟩ => show win1_2.index t (1 : Fin 2) * 64 + 1 * j.val = j.val; omega
  have r3 : ∀ (k : Fin 32) (j : Fin 64), iblk1 V c 3 t (ix2 k j) = V c main_v31 (ix2 k j) := fun k j => by
    show V c main_v31 (((cfg1.win 3).blk t).view.emb (ix2 k j)) = _
    refine congrArg (V c main_v31) (funext fun a => Fin.ext ?_)
    match a with
    | ⟨0, _⟩ => show win1_3.index t (0 : Fin 2) * 32 + 1 * k.val = k.val; omega
    | ⟨1, _⟩ => show win1_3.index t (1 : Fin 2) * 64 + 1 * j.val = j.val; omega
  have r4 : ∀ j : Fin 64, iblk1 V c 4 t (ix1 j) = V c main_arg10 (ix1 j) := fun j => by
    show V c main_arg10 (((cfg1.win 4).blk t).view.emb (ix1 j)) = _
    refine congrArg (V c main_arg10) (funext fun a => Fin.ext ?_)
    match a with
    | ⟨0, _⟩ => show win1_4.index t (0 : Fin 1) * 64 + 1 * j.val = j.val; omega
  have r5 : ∀ (j : Fin 64) (c' : Fin 32), iblk1 V c 5 t (ix2 j c') = V c main_v32 (ix2 j c') := fun j c' => by
    show V c main_v32 (((cfg1.win 5).blk t).view.emb (ix2 j c')) = _
    refine congrArg (V c main_v32) (funext fun a => Fin.ext ?_)
    match a with
    | ⟨0, _⟩ => show win1_5.index t (0 : Fin 2) * 64 + 1 * j.val = j.val; omega
    | ⟨1, _⟩ => show win1_5.index t (1 : Fin 2) * 32 + 1 * c'.val = c'.val; omega
  have r6 : ∀ c' : Fin 32, iblk1 V c 6 t (ix1 c') = V c main_arg12 (ix1 c') := fun c' => by
    show V c main_arg12 (((cfg1.win 6).blk t).view.emb (ix1 c')) = _
    refine congrArg (V c main_arg12) (funext fun a => Fin.ext ?_)
    match a with
    | ⟨0, _⟩ => show win1_6.index t (0 : Fin 1) * 32 + 1 * c'.val = c'.val; omega
  have r7 : ∀ k : Fin 32, iblk1 V c 7 t (ix2 k (0 : Fin 1)) = V c main_v33 (ix2 k (0 : Fin 1)) := fun k => by
    show V c main_v33 (((cfg1.win 7).blk t).view.emb (ix2 k (0 : Fin 1))) = _
    refine congrArg (V c main_v33) (funext fun a => Fin.ext ?_)
    match a with
    | ⟨0, _⟩ => show win1_7.index t (0 : Fin 2) * 32 + 1 * k.val = k.val; omega
    | ⟨1, _⟩ => show win1_7.index t (1 : Fin 2) * 1 + 1 * 0 = 0; omega
  have r8 : iblk1 V c 8 t (ix1 (0 : Fin 1)) = V c main_arg14 (ix1 (0 : Fin 1)) := by
    show V c main_arg14 (((cfg1.win 8).blk t).view.emb (ix1 (0 : Fin 1))) = _
    refine congrArg (V c main_arg14) (funext fun a => Fin.ext ?_)
    match a with
    | ⟨0, _⟩ => show win1_8.index t (0 : Fin 1) * 1 + 1 * 0 = 0; omega
  simp only [r0, r1, r2, r3, r4, r5, r6, r7, r8]
  rfl

/-- An index of the output array is in point t's block iff each coordinate is in the block's range on its axis. -/
theorem mem_blk (t : Fin cfg1.N) (i : S100000x1.Idx) :
    i ∈ ((cfg1.win 9).blk t).view.set ↔ ∀ a : Fin 2, win1_9.index t a * S5000x1.size a ≤ (i a).val
      ∧ (i a).val < win1_9.index t a * S5000x1.size a + S5000x1.size a := by
  show i ∈ ((View.whole main_v34).slice (win1_9.rect t)).set ↔ _
  rw [View.set_slice_whole, Rect.mem_set_unit]
  exact Iff.rfl

/-- Every entry of the output array lies in the block of the point that handles its row. -/
theorem cover (i : S100000x1.Idx) : ∃ t : Fin cfg1.N, (cfg1.win 9).flush t = true ∧ i ∈ ((cfg1.win 9).blk t).view.set := by
  have hi0 : (i 0).val < 100000 := (i 0).isLt
  have hi1 : (i 1).val < 1 := (i 1).isLt
  have hN : cfg1.N = 20 := N_1
  let t : Fin cfg1.N := ⟨(i 0).val / 5000, by rw [hN]; omega⟩
  obtain ⟨e00, e01, e10, e11, e20, e21, e30, e31, e40, e50, e51, e60, e70, e71, e80, e90, e91⟩ := idx_facts t
  have e90' : win1_9.index t (0 : Fin 2) = (i 0).val / 5000 := e90
  refine ⟨t, flush1_9 t, ?_⟩
  rw [mem_blk]
  intro a
  match a with
  | ⟨0, _⟩ =>
    show win1_9.index t (0 : Fin 2) * 5000 ≤ (i 0).val ∧ (i 0).val < win1_9.index t (0 : Fin 2) * 5000 + 5000
    omega
  | ⟨1, _⟩ =>
    show win1_9.index t (1 : Fin 2) * 1 ≤ (i 1).val ∧ (i 1).val < win1_9.index t (1 : Fin 2) * 1 + 1
    omega

/-- The output array after the run is the logistic function of the node network of every row of the operands as the
    region found them. -/
theorem final (c : Dev nD) : (dat1 V c).arrAt 9 cfg1.N
    = nodeArr (V c main_arg0) (V c main_v27) (V c main_v29) (V c main_v31) (V c main_arg10) (V c main_v32) (V c main_arg12)
        (V c main_v33) (V c main_arg14) :=
  (dat1 V c).arrAt_eq_of_cover 9 _ (fun t _ => flushed_eq V c t) cover

end Cert.KernelIdeal.Region1

end
-- ==== Proof.KernelValue.lean ====
/-
  The idealized kernel's result as one function of the argument arrays.

  Before the edge kernel the host gathers, for every edge, the feature row of its destination node and of its source
  node (a negative index wrapped by the table's length first), and cuts the first weight matrix into its three row
  blocks; changes of float format are the identity at the extended reals. The edge kernel's output array is then the
  edge network of every row (the region's whole-array form). The host adds each edge's output row into the row of a
  zero table that the edge's destination index names, cuts the node network's first weight matrix into two row
  blocks, and the node kernel's output array is the logistic function of the node network of every row. No host
  operation and no region writes an argument array, so each is read back through the boundaries as launched.
-/
import proofs.«181587_j81475529605800_2_alg».proof.Proof.Gen.KernelIdeal.Frame
import proofs.«181587_j81475529605800_2_alg».proof.Proof.Region0
import proofs.«181587_j81475529605800_2_alg».proof.Proof.Region1
import Idealize.ShloMosaic.Lib.StableHlo.Run
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments at the boundaries -/

theorem W1_arg0 (c : Dev nD) : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg1 (c : Dev nD) : W1 m ρ c (Proc.devRef .tc main_arg1) = m ((c : Thread nD τ).loc main_arg1) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg2 (c : Dev nD) : W1 m ρ c (Proc.devRef .tc main_arg2) = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg3 (c : Dev nD) : W1 m ρ c (Proc.devRef .tc main_arg3) = m ((c : Thread nD τ).loc main_arg3) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg4 (c : Dev nD) : W1 m ρ c (Proc.devRef .tc main_arg4) = m ((c : Thread nD τ).loc main_arg4) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg5 (c : Dev nD) : W1 m ρ c (Proc.devRef .tc main_arg5) = m ((c : Thread nD τ).loc main_arg5) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg6 (c : Dev nD) : W1 m ρ c (Proc.devRef .tc main_arg6) = m ((c : Thread nD τ).loc main_arg6) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg7 (c : Dev nD) : W1 m ρ c (Proc.devRef .tc main_arg7) = m ((c : Thread nD τ).loc main_arg7) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg8 (c : Dev nD) : W1 m ρ c (Proc.devRef .tc main_arg8) = m ((c : Thread nD τ).loc main_arg8) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg9 (c : Dev nD) : W1 m ρ c (Proc.devRef .tc main_arg9) = m ((c : Thread nD τ).loc main_arg9) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg10 (c : Dev nD) : W1 m ρ c (Proc.devRef .tc main_arg10) = m ((c : Thread nD τ).loc main_arg10) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg11 (c : Dev nD) : W1 m ρ c (Proc.devRef .tc main_arg11) = m ((c : Thread nD τ).loc main_arg11) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg12 (c : Dev nD) : W1 m ρ c (Proc.devRef .tc main_arg12) = m ((c : Thread nD τ).loc main_arg12) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg13 (c : Dev nD) : W1 m ρ c (Proc.devRef .tc main_arg13) = m ((c : Thread nD τ).loc main_arg13) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg14 (c : Dev nD) : W1 m ρ c (Proc.devRef .tc main_arg14) = m ((c : Thread nD τ).loc main_arg14) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg0 (c : Dev nD) : W2 m ρ c (Proc.devRef .tc main_arg0) = m ((c : Thread nD τ).loc main_arg0) :=
  (W2_of_ne m ρ c main_arg0 (by decide)).trans (W1_arg0 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)

theorem W3_arg0 (c : Dev nD) : W3 m ρ c (Proc.devRef .tc main_arg0) = m ((c : Thread nD τ).loc main_arg0) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg0 m ρ c)
theorem W3_arg10 (c : Dev nD) : W3 m ρ c (Proc.devRef .tc main_arg10) = m ((c : Thread nD τ).loc main_arg10) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg10 m ρ c)
theorem W3_arg12 (c : Dev nD) : W3 m ρ c (Proc.devRef .tc main_arg12) = m ((c : Thread nD τ).loc main_arg12) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg12 m ρ c)
theorem W3_arg14 (c : Dev nD) : W3 m ρ c (Proc.devRef .tc main_arg14) = m ((c : Thread nD τ).loc main_arg14) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg14 m ρ c)

/-! ## The operands the host prepares -/

/-- An index vector with its negative entries wrapped by a table's length, as a column. -/
abbrev wrapCol (n : BitVec 32) (a : IVec S2000000 32) : IVec S2000000x1 32 :=
  broadcastInDim S2000000x1 ![0] bcast_S2000000_S2000000x1_0
    (select (cmpi .slt a (broadcastInDim S2000000 ![] bcast_S_S2000000 (constantI S_ 32 0#32)))
      (addi a (broadcastInDim S2000000 ![] bcast_S_S2000000 (constantI S_ 32 n))) a)

/-- The destination nodes' feature rows, one per edge. -/
abbrev gatherU (x0 : FVec Ideal S100000x32 .f32) (x4 : IVec S2000000 32) : FVec Ideal S2000000x32 .f32 :=
  Host.gather gather_S100000x32_S2000000x1_S2000000x32_1_0_n_n_0_1_132 x0 (wrapCol 100000#32 x4)

/-- The source nodes' feature rows, one per edge. -/
abbrev gatherV (x1 : FVec Ideal S50000x32 .f32) (x3 : IVec S2000000 32) : FVec Ideal S2000000x32 .f32 :=
  Host.gather gather_S50000x32_S2000000x1_S2000000x32_1_0_n_n_0_1_132 x1 (wrapCol 50000#32 x3)

/-- The edge outputs summed into their destination nodes' rows of a zero table. -/
abbrev segSum (x4 : IVec S2000000 32) (h : FVec Ideal S2000000x32 .f32) : FVec Ideal S100000x32 .f32 :=
  Host.scatterAdd scatter_S100000x32_S2000000x1_S2000000x32_1_0_0_1
    (broadcastInDim S100000x32 ![] bcast_S_S100000x32 (constant S_ .f32 0x00000000#32))
    (broadcastInDim S2000000x1 ![0] bcast_S2000000_S2000000x1_0 x4) h

/-- A change of float format (the identity at the extended reals), with its shape explicit. -/
abbrev tr (s : Shape) (x : FVec Ideal s .f32) : FVec Ideal s .bf16 := truncf .bf16 x bitsLt_bf16_f32

theorem V1_v7 (c : Dev nD) : V1 m ρ c main_v7 = tr S2000000x32 (gatherU (m ((c : Thread nD τ).loc main_arg0)) (m ((c : Thread nD τ).loc main_arg4))) := by
  dsimp only [V1, W1, hostOps0]; after_results <;> rfl
set_option maxHeartbeats 4000000 in
theorem V1_v15 (c : Dev nD) : V1 m ρ c main_v15 = tr S2000000x32 (gatherV (m ((c : Thread nD τ).loc main_arg1)) (m ((c : Thread nD τ).loc main_arg3))) := by
  dsimp only [V1, W1, hostOps0]; after_results <;> rfl
theorem V1_v16 (c : Dev nD) : V1 m ρ c main_v16 = tr S2000000x8 (m ((c : Thread nD τ).loc main_arg2)) := by
  dsimp only [V1, W1, hostOps0]; after_results <;> rfl
theorem V1_v18 (c : Dev nD) : V1 m ρ c main_v18 = tr S32x64 (extractStridedSlice S32x64 ![0, 0] (m ((c : Thread nD τ).loc main_arg5)) slices_S72x64_S32x64_0_0) := by
  dsimp only [V1, W1, hostOps0]; after_results <;> rfl
theorem V1_v20 (c : Dev nD) : V1 m ρ c main_v20 = tr S32x64 (extractStridedSlice S32x64 ![32, 0] (m ((c : Thread nD τ).loc main_arg5)) slices_S72x64_S32x64_32_0) := by
  dsimp only [V1, W1, hostOps0]; after_results <;> rfl
theorem V1_v22 (c : Dev nD) : V1 m ρ c main_v22 = tr S8x64 (extractStridedSlice S8x64 ![64, 0] (m ((c : Thread nD τ).loc main_arg5)) slices_S72x64_S8x64_64_0) := by
  dsimp only [V1, W1, hostOps0]; after_results <;> rfl
theorem V1_v23 (c : Dev nD) : V1 m ρ c main_v23 = tr S64x32 (m ((c : Thread nD τ).loc main_arg7)) := by
  dsimp only [V1, W1, hostOps0]; after_results <;> rfl
theorem V1_arg6 (c : Dev nD) : V1 m ρ c main_arg6 = m ((c : Thread nD τ).loc main_arg6) := W1_arg6 m ρ c
theorem V1_arg8 (c : Dev nD) : V1 m ρ c main_arg8 = m ((c : Thread nD τ).loc main_arg8) := W1_arg8 m ρ c

/-- The edge kernel's output array in the contents at its exit. -/
theorem W2_v24 (c : Dev nD) : W2 m ρ c (Proc.devRef .tc main_v24) = (dat0 (V1 m ρ) c).arrAt 9 cfg0.N := W2_arr m ρ c 9

theorem V3_v27 (c : Dev nD) : V3 m ρ c main_v27 = segSum (m ((c : Thread nD τ).loc main_arg4)) ((dat0 (V1 m ρ) c).arrAt 9 cfg0.N) := by
  have e : V3 m ρ c main_v27 = segSum (W2 m ρ c (Proc.devRef .tc main_arg4)) (W2 m ρ c (Proc.devRef .tc main_v24)) := by
    dsimp only [V3, W3, hostOps1]; after_results <;> rfl
  rw [e, W2_arg4, W2_v24]
theorem V3_v29 (c : Dev nD) : V3 m ρ c main_v29 = tr S32x64 (extractStridedSlice S32x64 ![0, 0] (m ((c : Thread nD τ).loc main_arg9)) slices_S64x64_S32x64_0_0) := by
  have e : V3 m ρ c main_v29 = tr S32x64 (extractStridedSlice S32x64 ![0, 0] (W2 m ρ c (Proc.devRef .tc main_arg9)) slices_S64x64_S32x64_0_0) := by
    dsimp only [V3, W3, hostOps1]; after_results <;> rfl
  rw [e, W2_arg9]
theorem V3_v31 (c : Dev nD) : V3 m ρ c main_v31 = tr S32x64 (extractStridedSlice S32x64 ![32, 0] (m ((c : Thread nD τ).loc main_arg9)) slices_S64x64_S32x64_32_0) := by
  have e : V3 m ρ c main_v31 = tr S32x64 (extractStridedSlice S32x64 ![32, 0] (W2 m ρ c (Proc.devRef .tc main_arg9)) slices_S64x64_S32x64_32_0) := by
    dsimp only [V3, W3, hostOps1]; after_results <;> rfl
  rw [e, W2_arg9]
theorem V3_v32 (c : Dev nD) : V3 m ρ c main_v32 = tr S64x32 (m ((c : Thread nD τ).loc main_arg11)) := by
  have e : V3 m ρ c main_v32 = tr S64x32 (W2 m ρ c (Proc.devRef .tc main_arg11)) := by
    dsimp only [V3, W3, hostOps1]; after_results <;> rfl
  rw [e, W2_arg11]
theorem V3_v33 (c : Dev nD) : V3 m ρ c main_v33 = tr S32x1 (m ((c : Thread nD τ).loc main_arg13)) := by
  have e : V3 m ρ c main_v33 = tr S32x1 (W2 m ρ c (Proc.devRef .tc main_arg13)) := by
    dsimp only [V3, W3, hostOps1]; after_results <;> rfl
  rw [e, W2_arg13]
theorem V3_arg0 (c : Dev nD) : V3 m ρ c main_arg0 = m ((c : Thread nD τ).loc main_arg0) := W3_arg0 m ρ c
theorem V3_arg10 (c : Dev nD) : V3 m ρ c main_arg10 = m ((c : Thread nD τ).loc main_arg10) := W3_arg10 m ρ c
theorem V3_arg12 (c : Dev nD) : V3 m ρ c main_arg12 = m ((c : Thread nD τ).loc main_arg12) := W3_arg12 m ρ c
theorem V3_arg14 (c : Dev nD) : V3 m ρ c main_arg14 = m ((c : Thread nD τ).loc main_arg14) := W3_arg14 m ρ c

/-! ## The result -/

/-- The result array as a function of the fifteen argument arrays. -/
def kernelFun (x0 : FVec Ideal S100000x32 .f32) (x1 : FVec Ideal S50000x32 .f32) (x2 : FVec Ideal S2000000x8 .f32)
    (x3 x4 : IVec S2000000 32) (x5 : FVec Ideal S72x64 .f32) (x6 : FVec Ideal S64 .f32) (x7 : FVec Ideal S64x32 .f32)
    (x8 : FVec Ideal S32 .f32) (x9 : FVec Ideal S64x64 .f32) (x10 : FVec Ideal S64 .f32) (x11 : FVec Ideal S64x32 .f32)
    (x12 : FVec Ideal S32 .f32) (x13 : FVec Ideal S32x1 .f32) (x14 : FVec Ideal S1 .f32) : S100000x1.Idx → EReal :=
  Region1.nodeArr x0
    (segSum x4 (Region0.edgeArr (gatherU x0 x4) (gatherV x1 x3) x2
      (extractStridedSlice S32x64 ![0, 0] x5 slices_S72x64_S32x64_0_0) (extractStridedSlice S32x64 ![32, 0] x5 slices_S72x64_S32x64_32_0)
      (extractStridedSlice S8x64 ![64, 0] x5 slices_S72x64_S8x64_64_0) x6 x7 x8))
    (extractStridedSlice S32x64 ![0, 0] x9 slices_S64x64_S32x64_0_0) (extractStridedSlice S32x64 ![32, 0] x9 slices_S64x64_S32x64_32_0)
    x10 x11 x12 x13 x14

/-- The result buffer's contents at the last boundary are that function of the launch contents of the arguments. -/
theorem value (c : Dev nD) : W4 m ρ c (Proc.devRef .tc main_v34)
    = kernelFun (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W4_arr m ρ c 9).trans ?_
  rw [Region1.final (V3 m ρ) c, V3_arg0, V3_v27, V3_v29, V3_v31, V3_arg10, V3_v32, V3_arg12, V3_v33, V3_arg14,
    Region0.final (V1 m ρ) c, V1_v7, V1_v15, V1_v16, V1_v18, V1_v20, V1_v22, V1_arg6, V1_v23, V1_arg8]
  rfl

end Cert.KernelIdeal.KValue

end
-- ==== Proof.LibPlainDot.lean ====
/-
  The host's plain matrix product, read at an entry.

  For a `dot_general` whose dimension numbers contract the left operand's columns against the right operand's
  rows, with no batch axis — `[M, K] × [K, N] → [M, N]` — the product on the host is, at the extended reals, the
  textbook sum: entry `(p, c)` is the sum over `k` of `lhs (p, k) · rhs (k, c)`. As for a kernel's product into a
  zero accumulator, the dimension numbers enter only through four coordinate facts about the dot's operand indices
  and the fact that exactly one axis, of extent `K`, is contracted; the lemma is general in the extents, the element
  types and the contraction precision.
-/
import Idealize.ShloMosaic.PureOps.Ideal.Laws
import Idealize.ShloMosaic.Lib.ValueIdx

noncomputable section

namespace Cert.LibPlainDot

open Idealize.ShloMosaic Idealize.ShloMosaic.ValueIdx
open scoped BigOperators

/-- Entry `(p, c)` of the host's `lhs · rhs` is `Σ k, lhs (p, k) · rhs (k, c)`: the dot's sum over its one-axis
    contraction index, re-indexed along the bijection of that index with `Fin K`, each operand index then identified
    by its two coordinates. -/
theorem dotGeneral_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    Host.dotGeneral D prec lhs rhs (ix2 p c) = ∑ k : Fin K, lhs (ix2 p k) * rhs (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.LibConcatCols.lean ====
/-
  Matrices of one height laid side by side (a concatenation along the columns of rank-2 shapes), read at an entry.

  Entry (a, k) of the joined matrix is an entry of the piece whose column range holds k, in row a, at the column
  counted from that piece's first. Stated for three pieces and for two, general in the extents and the element type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- Three pieces: a column inside the first piece. -/
theorem join3_fst {A n1 n2 n3 n : ℕ} (x1 : (⟨2, ![A, n1]⟩ : Shape).Idx → α) (x2 : (⟨2, ![A, n2]⟩ : Shape).Idx → α)
    (x3 : (⟨2, ![A, n3]⟩ : Shape).Idx → α)
    (h : Shape.Concatenates [⟨2, ![A, n1]⟩, ⟨2, ![A, n2]⟩, ⟨2, ![A, n3]⟩] ⟨2, ![A, n]⟩ (1 : Fin 2))
    (a : Fin A) (k : Fin n) (k1 : Fin n1) (hk : k.val = k1.val) :
    concatenate ⟨2, ![A, n]⟩ 1 [⟨⟨2, ![A, n1]⟩, x1⟩, ⟨⟨2, ![A, n2]⟩, x2⟩, ⟨⟨2, ![A, n3]⟩, x3⟩] h (ix2 a k) = x1 (ix2 a k1) := by
  refine concatenate_apply_piece (t := ⟨2, ![A, n]⟩) (1 : Fin 2) ([⟨⟨2, ![A, n1]⟩, x1⟩, ⟨⟨2, ![A, n2]⟩, x2⟩, ⟨⟨2, ![A, n3]⟩, x3⟩] : List ((s : Shape) × (s.Idx → α))) h (ix2 a k) 0 (by simp) ⟨2, ![A, n1]⟩ x1 rfl rfl 0 rfl (ix2 a k1) ?_ ?_
  · intro b hb
    match b with
    | ⟨0, _⟩ => rfl
    | ⟨1, _⟩ => exact absurd rfl hb
  · show 0 + k1.val = k.val
    omega

/-- Three pieces: a column inside the second piece. -/
theorem join3_snd {A n1 n2 n3 n : ℕ} (x1 : (⟨2, ![A, n1]⟩ : Shape).Idx → α) (x2 : (⟨2, ![A, n2]⟩ : Shape).Idx → α)
    (x3 : (⟨2, ![A, n3]⟩ : Shape).Idx → α)
    (h : Shape.Concatenates [⟨2, ![A, n1]⟩, ⟨2, ![A, n2]⟩, ⟨2, ![A, n3]⟩] ⟨2, ![A, n]⟩ (1 : Fin 2))
    (a : Fin A) (k : Fin n) (k2 : Fin n2) (hk : k.val = n1 + k2.val) :
    concatenate ⟨2, ![A, n]⟩ 1 [⟨⟨2, ![A, n1]⟩, x1⟩, ⟨⟨2, ![A, n2]⟩, x2⟩, ⟨⟨2, ![A, n3]⟩, x3⟩] h (ix2 a k) = x2 (ix2 a k2) := by
  refine concatenate_apply_piece (t := ⟨2, ![A, n]⟩) (1 : Fin 2) ([⟨⟨2, ![A, n1]⟩, x1⟩, ⟨⟨2, ![A, n2]⟩, x2⟩, ⟨⟨2, ![A, n3]⟩, x3⟩] : List ((s : Shape) × (s.Idx → α))) h (ix2 a k) 1 (by simp) ⟨2, ![A, n2]⟩ x2 rfl rfl n1 ?_ (ix2 a k2) ?_ ?_
  · show (if h : (2 : ℕ) = 2 then n1 else 0) + 0 = n1
    rw [dif_pos rfl, Nat.add_zero]
  · intro b hb
    match b with
    | ⟨0, _⟩ => rfl
    | ⟨1, _⟩ => exact absurd rfl hb
  · show n1 + k2.val = k.val
    omega

/-- Three pieces: a column inside the third piece. -/
theorem join3_thd {A n1 n2 n3 n : ℕ} (x1 : (⟨2, ![A, n1]⟩ : Shape).Idx → α) (x2 : (⟨2, ![A, n2]⟩ : Shape).Idx → α)
    (x3 : (⟨2, ![A, n3]⟩ : Shape).Idx → α)
    (h : Shape.Concatenates [⟨2, ![A, n1]⟩, ⟨2, ![A, n2]⟩, ⟨2, ![A, n3]⟩] ⟨2, ![A, n]⟩ (1 : Fin 2))
    (a : Fin A) (k : Fin n) (k3 : Fin n3) (hk : k.val = n1 + n2 + k3.val) :
    concatenate ⟨2, ![A, n]⟩ 1 [⟨⟨2, ![A, n1]⟩, x1⟩, ⟨⟨2, ![A, n2]⟩, x2⟩, ⟨⟨2, ![A, n3]⟩, x3⟩] h (ix2 a k) = x3 (ix2 a k3) := by
  refine concatenate_apply_piece (t := ⟨2, ![A, n]⟩) (1 : Fin 2) ([⟨⟨2, ![A, n1]⟩, x1⟩, ⟨⟨2, ![A, n2]⟩, x2⟩, ⟨⟨2, ![A, n3]⟩, x3⟩] : List ((s : Shape) × (s.Idx → α))) h (ix2 a k) 2 (by simp) ⟨2, ![A, n3]⟩ x3 rfl rfl (n1 + n2) ?_ (ix2 a k3) ?_ ?_
  · show (if h : (2 : ℕ) = 2 then n1 else 0) + ((if h : (2 : ℕ) = 2 then n2 else 0) + 0) = n1 + n2
    rw [dif_pos rfl, dif_pos rfl, Nat.add_zero]
  · intro b hb
    match b with
    | ⟨0, _⟩ => rfl
    | ⟨1, _⟩ => exact absurd rfl hb
  · show n1 + n2 + k3.val = k.val
    omega

/-- Two pieces: a column inside the first piece. -/
theorem join2_fst {A n1 n2 n : ℕ} (x1 : (⟨2, ![A, n1]⟩ : Shape).Idx → α) (x2 : (⟨2, ![A, n2]⟩ : Shape).Idx → α)
    (h : Shape.Concatenates [⟨2, ![A, n1]⟩, ⟨2, ![A, n2]⟩] ⟨2, ![A, n]⟩ (1 : Fin 2))
    (a : Fin A) (k : Fin n) (k1 : Fin n1) (hk : k.val = k1.val) :
    concatenate ⟨2, ![A, n]⟩ 1 [⟨⟨2, ![A, n1]⟩, x1⟩, ⟨⟨2, ![A, n2]⟩, x2⟩] h (ix2 a k) = x1 (ix2 a k1) := by
  refine concatenate_apply_piece (t := ⟨2, ![A, n]⟩) (1 : Fin 2) ([⟨⟨2, ![A, n1]⟩, x1⟩, ⟨⟨2, ![A, n2]⟩, x2⟩] : List ((s : Shape) × (s.Idx → α))) h (ix2 a k) 0 (by simp) ⟨2, ![A, n1]⟩ x1 rfl rfl 0 rfl (ix2 a k1) ?_ ?_
  · intro b hb
    match b with
    | ⟨0, _⟩ => rfl
    | ⟨1, _⟩ => exact absurd rfl hb
  · show 0 + k1.val = k.val
    omega

/-- Two pieces: a column inside the second piece. -/
theorem join2_snd {A n1 n2 n : ℕ} (x1 : (⟨2, ![A, n1]⟩ : Shape).Idx → α) (x2 : (⟨2, ![A, n2]⟩ : Shape).Idx → α)
    (h : Shape.Concatenates [⟨2, ![A, n1]⟩, ⟨2, ![A, n2]⟩] ⟨2, ![A, n]⟩ (1 : Fin 2))
    (a : Fin A) (k : Fin n) (k2 : Fin n2) (hk : k.val = n1 + k2.val) :
    concatenate ⟨2, ![A, n]⟩ 1 [⟨⟨2, ![A, n1]⟩, x1⟩, ⟨⟨2, ![A, n2]⟩, x2⟩] h (ix2 a k) = x2 (ix2 a k2) := by
  refine concatenate_apply_piece (t := ⟨2, ![A, n]⟩) (1 : Fin 2) ([⟨⟨2, ![A, n1]⟩, x1⟩, ⟨⟨2, ![A, n2]⟩, x2⟩] : List ((s : Shape) × (s.Idx → α))) h (ix2 a k) 1 (by simp) ⟨2, ![A, n2]⟩ x2 rfl rfl n1 ?_ (ix2 a k2) ?_ ?_
  · show (if h : (2 : ℕ) = 2 then n1 else 0) + 0 = n1
    rw [dif_pos rfl, Nat.add_zero]
  · intro b hb
    match b with
    | ⟨0, _⟩ => rfl
    | ⟨1, _⟩ => exact absurd rfl hb
  · show n1 + k2.val = k.val
    omega

end Cert.LibConcatCols

end
-- ==== Proof.RefValue.lean ====
/-
  The idealized reference's result as one function of the argument arrays, and that function at an entry.

  The reference gathers the same rows as the kernel's host code, lays the three feature groups of every edge side by
  side and applies the joined-form edge network to every row; it adds the rows into a zero table by destination index,
  lays node features and sums side by side, applies the joined-form node network to every row, and takes
  1 / (1 + exp(−y)) of the result, which is the logistic function. Each host matrix product is the plain sum over its
  contraction positions; a bias made one row and tiled over the rows is read at the column; a joined matrix is read
  in the piece that holds the column.
-/
import proofs.«181587_j81475529605800_2_alg».proof.Proof.Gen.ReferenceIdeal.Run
import proofs.«181587_j81475529605800_2_alg».proof.Proof.Gen.ReferenceIdeal.Read
import proofs.«181587_j81475529605800_2_alg».proof.Proof.LibPlainDot
import proofs.«181587_j81475529605800_2_alg».proof.Proof.LibBiasRow
import proofs.«181587_j81475529605800_2_alg».proof.Proof.LibConcatCols
import proofs.«181587_j81475529605800_2_alg».proof.Proof.Spec
import Idealize.ShloMosaic.Lib.IdealHost

set_option maxRecDepth 16384

noncomputable section

namespace Cert.ReferenceIdeal.RefValue

open Cert.ReferenceIdeal Cert.ReferenceIdeal.Gen Idealize.ShloMosaic Idealize.ShloMosaic.TcCoe Idealize.ShloMosaic.ValueIdx Idealize.SL.Sem Cert.Spec
open scoped BigOperators

/-! ## The host matrix products at an entry -/

theorem dot15 (X : FVec Ideal S2000000x72 .f32) (W : FVec Ideal S72x64 .f32) (p : Fin 2000000) (j : Fin 64) :
    Host.dotGeneral dot_S2000000x72_S72x64_S2000000x64_1_0_0_1_n_n none X W (ix2 p j) = ∑ k : Fin 72, X (ix2 p k) * W (ix2 k j) :=
  Cert.LibPlainDot.dotGeneral_ix2 dot_S2000000x72_S72x64_S2000000x64_1_0_0_1_n_n none rfl rfl Read.lhs_main_v15_0 Read.lhs_main_v15_1 Read.rhs_main_v15_0 Read.rhs_main_v15_1 X W p j
theorem dot20 (X : FVec Ideal S2000000x64 .f32) (W : FVec Ideal S64x32 .f32) (p : Fin 2000000) (j : Fin 32) :
    Host.dotGeneral dot_S2000000x64_S64x32_S2000000x32_1_0_0_1_n_n none X W (ix2 p j) = ∑ k : Fin 64, X (ix2 p k) * W (ix2 k j) :=
  Cert.LibPlainDot.dotGeneral_ix2 dot_S2000000x64_S64x32_S2000000x32_1_0_0_1_n_n none rfl rfl Read.lhs_main_v20_0 Read.lhs_main_v20_1 Read.rhs_main_v20_0 Read.rhs_main_v20_1 X W p j
theorem dot29 (X : FVec Ideal S100000x64 .f32) (W : FVec Ideal S64x64 .f32) (p : Fin 100000) (j : Fin 64) :
    Host.dotGeneral dot_S100000x64_S64x64_S100000x64_1_0_0_1_n_n none X W (ix2 p j) = ∑ k : Fin 64, X (ix2 p k) * W (ix2 k j) :=
  Cert.LibPlainDot.dotGeneral_ix2 dot_S100000x64_S64x64_S100000x64_1_0_0_1_n_n none rfl rfl Read.lhs_main_v29_0 Read.lhs_main_v29_1 Read.rhs_main_v29_0 Read.rhs_main_v29_1 X W p j
theorem dot34 (X : FVec Ideal S100000x64 .f32) (W : FVec Ideal S64x32 .f32) (p : Fin 100000) (j : Fin 32) :
    Host.dotGeneral dot_S100000x64_S64x32_S100000x32_1_0_0_1_n_n none X W (ix2 p j) = ∑ k : Fin 64, X (ix2 p k) * W (ix2 k j) :=
  Cert.LibPlainDot.dotGeneral_ix2 dot_S100000x64_S64x32_S100000x32_1_0_0_1_n_n none rfl rfl Read.lhs_main_v34_0 Read.lhs_main_v34_1 Read.rhs_main_v34_0 Read.rhs_main_v34_1 X W p j
theorem dot39 (X : FVec Ideal S100000x32 .f32) (W : FVec Ideal S32x1 .f32) (p : Fin 100000) (j : Fin 1) :
    Host.dotGeneral dot_S100000x32_S32x1_S100000x1_1_0_0_1_n_n none X W (ix2 p j) = ∑ k : Fin 32, X (ix2 p k) * W (ix2 k j) :=
  Cert.LibPlainDot.dotGeneral_ix2 dot_S100000x32_S32x1_S100000x1_1_0_0_1_n_n none rfl rfl Read.lhs_main_v39_0 Read.lhs_main_v39_1 Read.rhs_main_v39_0 Read.rhs_main_v39_1 X W p j

/-! ## The program's pieces as functions of arrays -/

/-- An index vector with its negative entries wrapped by a table's length, as a column. -/
abbrev wrapCol (n : BitVec 32) (a : IVec S2000000 32) : IVec S2000000x1 32 :=
  broadcastInDim S2000000x1 ![0] bcast_S2000000_S2000000x1_0
    (select (cmpi .slt a (broadcastInDim S2000000 ![] bcast_S_S2000000 (constantI S_ 32 0#32)))
      (addi a (broadcastInDim S2000000 ![] bcast_S_S2000000 (constantI S_ 32 n))) a)

/-- The destination nodes' feature rows, one per edge. -/
abbrev gatherU (x0 : FVec Ideal S100000x32 .f32) (x4 : IVec S2000000 32) : FVec Ideal S2000000x32 .f32 :=
  Host.gather gather_S100000x32_S2000000x1_S2000000x32_1_0_n_n_0_1_132 x0 (wrapCol 100000#32 x4)

/-- The source nodes' feature rows, one per edge. -/
abbrev gatherV (x1 : FVec Ideal S50000x32 .f32) (x3 : IVec S2000000 32) : FVec Ideal S2000000x32 .f32 :=
  Host.gather gather_S50000x32_S2000000x1_S2000000x32_1_0_n_n_0_1_132 x1 (wrapCol 50000#32 x3)

/-- The edge outputs summed into their destination nodes' rows of a zero table. -/
abbrev segSum (x4 : IVec S2000000 32) (h : FVec Ideal S2000000x32 .f32) : FVec Ideal S100000x32 .f32 :=
  Host.scatterAdd scatter_S100000x32_S2000000x1_S2000000x32_1_0_0_1
    (broadcastInDim S100000x32 ![] bcast_S_S100000x32 (constant S_ .f32 0x00000000#32))
    (broadcastInDim S2000000x1 ![0] bcast_S2000000_S2000000x1_0 x4) h

/-- The edge network applied to every edge: both layers with their maxima with zero. -/
def edgeRef (Ug Vg : FVec Ideal S2000000x32 .f32) (Ev : FVec Ideal S2000000x8 .f32) (W1 : FVec Ideal S72x64 .f32)
    (b1 : FVec Ideal S64 .f32) (W2 : FVec Ideal S64x32 .f32) (b2 : FVec Ideal S32 .f32) : FVec Ideal S2000000x32 .f32 :=
  maximumf (addf (Host.dotGeneral dot_S2000000x64_S64x32_S2000000x32_1_0_0_1_n_n none
    (maximumf (addf (Host.dotGeneral dot_S2000000x72_S72x64_S2000000x64_1_0_0_1_n_n none
        (concatenate S2000000x72 1 [⟨S2000000x32, Ug⟩, ⟨S2000000x32, Vg⟩, ⟨S2000000x8, Ev⟩] concatenates_S2000000x32_S2000000x32_S2000000x8_S2000000x72_d1) W1)
      (broadcastInDim S2000000x64 ![0, 1] bcast_S1x64_S2000000x64_0_1 (broadcastInDim S1x64 ![1] bcast_S64_S1x64_1 b1)))
      (broadcastInDim S2000000x64 ![] bcast_S_S2000000x64 (constant S_ .f32 0x00000000#32))) W2)
    (broadcastInDim S2000000x32 ![0, 1] bcast_S1x32_S2000000x32_0_1 (broadcastInDim S1x32 ![1] bcast_S32_S1x32_1 b2)))
    (broadcastInDim S2000000x32 ![] bcast_S_S2000000x32 (constant S_ .f32 0x00000000#32))

/-- The node network applied to every node, up to the last dense layer. -/
def nodePre (U agg : FVec Ideal S100000x32 .f32) (W1 : FVec Ideal S64x64 .f32) (b1 : FVec Ideal S64 .f32)
    (W2 : FVec Ideal S64x32 .f32) (b2 : FVec Ideal S32 .f32) (Wt : FVec Ideal S32x1 .f32) (bt : FVec Ideal S1 .f32) :
    FVec Ideal S100000x1 .f32 :=
  addf (Host.dotGeneral dot_S100000x32_S32x1_S100000x1_1_0_0_1_n_n none
    (maximumf (addf (Host.dotGeneral dot_S100000x64_S64x32_S100000x32_1_0_0_1_n_n none
      (maximumf (addf (Host.dotGeneral dot_S100000x64_S64x64_S100000x64_1_0_0_1_n_n none
          (concatenate S100000x64 1 [⟨S100000x32, U⟩, ⟨S100000x32, agg⟩] concatenates_S100000x32_S100000x32_S100000x64_d1) W1)
        (broadcastInDim S100000x64 ![0, 1] bcast_S1x64_S100000x64_0_1 (broadcastInDim S1x64 ![1] bcast_S64_S1x64_1 b1)))
        (broadcastInDim S100000x64 ![] bcast_S_S100000x64 (constant S_ .f32 0x00000000#32))) W2)
      (broadcastInDim S100000x32 ![0, 1] bcast_S1x32_S100000x32_0_1 (broadcastInDim S1x32 ![1] bcast_S32_S1x32_1 b2)))
      (broadcastInDim S100000x32 ![] bcast_S_S100000x32 (constant S_ .f32 0x00000000#32))) Wt)
    (broadcastInDim S100000x1 ![0, 1] bcast_S1x1_S100000x1_0_1 (broadcastInDim S1x1 ![1] bcast_S1_S1x1_1 bt))

/-- The result array as a function of the fifteen argument arrays. -/
def refFun (x0 : FVec Ideal S100000x32 .f32) (x1 : FVec Ideal S50000x32 .f32) (x2 : FVec Ideal S2000000x8 .f32)
    (x3 x4 : IVec S2000000 32) (x5 : FVec Ideal S72x64 .f32) (x6 : FVec Ideal S64 .f32) (x7 : FVec Ideal S64x32 .f32)
    (x8 : FVec Ideal S32 .f32) (x9 : FVec Ideal S64x64 .f32) (x10 : FVec Ideal S64 .f32) (x11 : FVec Ideal S64x32 .f32)
    (x12 : FVec Ideal S32 .f32) (x13 : FVec Ideal S32x1 .f32) (x14 : FVec Ideal S1 .f32) : FVec Ideal S100000x1 .f32 :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (nodePre x0 (segSum x4 (edgeRef (gatherU x0 x4) (gatherV x1 x3) x2 x5 x6 x7 x8)) x9 x10 x11 x12 x13 x14))))

/-! ## The pieces at an entry -/

/-- Entry (e, c) of the edge network's output is the joined-form edge network of row e. -/
theorem edgeRef_apply (Ug Vg : FVec Ideal S2000000x32 .f32) (Ev : FVec Ideal S2000000x8 .f32) (W1 : FVec Ideal S72x64 .f32)
    (b1 : FVec Ideal S64 .f32) (W2 : FVec Ideal S64x32 .f32) (b2 : FVec Ideal S32 .f32) (e : Fin 2000000) (c : Fin 32) :
    edgeRef Ug Vg Ev W1 b1 W2 b2 (ix2 e c)
      = edgeR (cat3 (fun k => Ug (ix2 e k)) (fun k => Vg (ix2 e k)) (fun k => Ev (ix2 e k))) (fun k j => W1 (ix2 k j))
          (fun j => b1 (ix1 j)) (fun j c => W2 (ix2 j c)) (fun c => b2 (ix1 c)) c := by
  unfold edgeRef edgeR
  refine (congrArg₂ (fun s t => max (s + t) z0) (dot20 _ W2 e c) (Cert.LibBiasRow.row_tile_apply b2 _ _ e c)).trans ?_
  refine congrArg (fun s => max (s + b2 (ix1 c)) z0) (Finset.sum_congr rfl fun j _ => congrArg (· * W2 (ix2 j c)) ?_)
  refine (congrArg₂ (fun s t => max (s + t) z0) (dot15 _ W1 e j) (Cert.LibBiasRow.row_tile_apply b1 _ _ e j)).trans ?_
  refine congrArg (fun s => max (s + b1 (ix1 j)) z0) (Finset.sum_congr rfl fun k _ => congrArg (· * W1 (ix2 k j)) ?_)
  have hk := k.isLt
  simp only [cat3]
  by_cases h1 : k.val < 32
  · rw [dif_pos h1]
    exact Cert.LibConcatCols.join3_fst Ug Vg Ev _ e k ⟨k.val, h1⟩ rfl
  · rw [dif_neg h1]
    by_cases h2 : k.val < 64
    · rw [dif_pos h2]
      exact Cert.LibConcatCols.join3_snd Ug Vg Ev _ e k ⟨k.val - 32, by omega⟩ (by show k.val = 32 + (k.val - 32); omega)
    · rw [dif_neg h2]
      exact Cert.LibConcatCols.join3_thd Ug Vg Ev _ e k ⟨k.val - 64, by omega⟩ (by show k.val = 32 + 32 + (k.val - 64); omega)

/-- Entry (i, u) of the node network before the logistic function is the joined-form node network of row i. -/
theorem nodePre_apply (U agg : FVec Ideal S100000x32 .f32) (W1 : FVec Ideal S64x64 .f32) (b1 : FVec Ideal S64 .f32)
    (W2 : FVec Ideal S64x32 .f32) (b2 : FVec Ideal S32 .f32) (Wt : FVec Ideal S32x1 .f32) (bt : FVec Ideal S1 .f32)
    (i : Fin 100000) (u : Fin 1) :
    nodePre U agg W1 b1 W2 b2 Wt bt (ix2 i u)
      = nodeR (cat2 (fun k => U (ix2 i k)) (fun k => agg (ix2 i k))) (fun k j => W1 (ix2 k j)) (fun j => b1 (ix1 j))
          (fun j c => W2 (ix2 j c)) (fun c => b2 (ix1 c)) (fun k => Wt (ix2 k u)) (bt (ix1 u)) := by
  unfold nodePre nodeR
  refine (congrArg₂ (· + ·) (dot39 _ Wt i u) (Cert.LibBiasRow.row_tile_apply bt _ _ i u)).trans ?_
  refine congrArg (· + bt (ix1 u)) (Finset.sum_congr rfl fun j _ => congrArg (· * Wt (ix2 j u)) ?_)
  refine (congrArg₂ (fun s t => max (s + t) z0) (dot34 _ W2 i j) (Cert.LibBiasRow.row_tile_apply b2 _ _ i j)).trans ?_
  refine congrArg (fun s => max (s + b2 (ix1 j)) z0) (Finset.sum_congr rfl fun j' _ => congrArg (· * W2 (ix2 j' j)) ?_)
  refine (congrArg₂ (fun s t => max (s + t) z0) (dot29 _ W1 i j') (Cert.LibBiasRow.row_tile_apply b1 _ _ i j')).trans ?_
  refine congrArg (fun s => max (s + b1 (ix1 j')) z0) (Finset.sum_congr rfl fun k _ => congrArg (· * W1 (ix2 k j')) ?_)
  have hk := k.isLt
  simp only [cat2]
  by_cases h1 : k.val < 32
  · rw [dif_pos h1]
    exact Cert.LibConcatCols.join2_fst U agg _ i k ⟨k.val, h1⟩ rfl
  · rw [dif_neg h1]
    exact Cert.LibConcatCols.join2_snd U agg _ i k ⟨k.val - 32, by omega⟩ (by show k.val = 32 + (k.val - 32); omega)

/-- One over one plus the exponential of the negative, with the ones spelt as float words, is the logistic function. -/
theorem logistic_expand (y : EReal) :
    Ideal.div (Ideal.ofBits .f32 0x3F800000#32) (Ideal.ofBits .f32 0x3F800000#32 + Ideal.exp (-y)) = Ideal.logistic y := by
  rw [Ideal.ofBits_one_f32]; rfl

/-- Entry (i, u) of the reference's result: the logistic function of the joined-form node network of row i, over the
    node features and the summed edge outputs. -/
theorem refFun_apply (x0 : FVec Ideal S100000x32 .f32) (x1 : FVec Ideal S50000x32 .f32) (x2 : FVec Ideal S2000000x8 .f32)
    (x3 x4 : IVec S2000000 32) (x5 : FVec Ideal S72x64 .f32) (x6 : FVec Ideal S64 .f32) (x7 : FVec Ideal S64x32 .f32)
    (x8 : FVec Ideal S32 .f32) (x9 : FVec Ideal S64x64 .f32) (x10 : FVec Ideal S64 .f32) (x11 : FVec Ideal S64x32 .f32)
    (x12 : FVec Ideal S32 .f32) (x13 : FVec Ideal S32x1 .f32) (x14 : FVec Ideal S1 .f32) (i : Fin 100000) (u : Fin 1) :
    refFun x0 x1 x2 x3 x4 x5 x6 x7 x8 x9 x10 x11 x12 x13 x14 (ix2 i u)
      = Ideal.logistic (nodeR (cat2 (fun k => x0 (ix2 i k))
          (fun k => segSum x4 (edgeRef (gatherU x0 x4) (gatherV x1 x3) x2 x5 x6 x7 x8) (ix2 i k)))
          (fun k j => x9 (ix2 k j)) (fun j => x10 (ix1 j)) (fun j c => x11 (ix2 j c)) (fun c => x12 (ix1 c))
          (fun k => x13 (ix2 k u)) (x14 (ix1 u))) :=
  (logistic_expand (nodePre x0 (segSum x4 (edgeRef (gatherU x0 x4) (gatherV x1 x3) x2 x5 x6 x7 x8)) x9 x10 x11 x12 x13 x14 (ix2 i u))).trans
    (congrArg Ideal.logistic (nodePre_apply x0 _ x9 x10 x11 x12 x13 x14 i u))

/-! ## The run -/

/-- Every weakly fair execution of the reference terminates with the result buffer at that function of the arguments'
    launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = refFun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  Cert.ReferenceIdeal.Value.run (F := Ideal) m ρ

end Cert.ReferenceIdeal.RefValue

end
-- ==== Proof.Bridge.lean ====
/-
  The kernel's function of the arguments is the reference's.

  Both gather the same rows and add edge outputs into the same rows, so it is enough to compare the two networks
  row by row. The kernel multiplies the feature groups by the row blocks that the host cut out of the first weight
  matrix; a row block read at (k, j) is the matrix at (offset + k, j). The split form on the row blocks is the
  joined form on the matrix, for the edge network and for the node network alike.
-/
import proofs.«181587_j81475529605800_2_alg».proof.Proof.KernelValue
import proofs.«181587_j81475529605800_2_alg».proof.Proof.RefValue
import Idealize.ShloMosaic.Lib.ValueLayout

set_option maxRecDepth 16384

noncomputable section

namespace Cert.Bridge

open Idealize.ShloMosaic Idealize.ShloMosaic.ValueIdx Cert.Spec

/-- The two programs' dimension records for the gathers and the accumulating scatter are the same records, so the
    gathered rows and the summed rows are the same functions. -/
theorem gatherU_eq (x0 : FVec Ideal Cert.KernelIdeal.S100000x32 .f32) (x4 : IVec Cert.KernelIdeal.S2000000 32) :
    Cert.KernelIdeal.KValue.gatherU x0 x4 = Cert.ReferenceIdeal.RefValue.gatherU x0 x4 := rfl
theorem gatherV_eq (x1 : FVec Ideal Cert.KernelIdeal.S50000x32 .f32) (x3 : IVec Cert.KernelIdeal.S2000000 32) :
    Cert.KernelIdeal.KValue.gatherV x1 x3 = Cert.ReferenceIdeal.RefValue.gatherV x1 x3 := rfl
theorem segSum_eq (x4 : IVec Cert.KernelIdeal.S2000000 32) (h : FVec Ideal Cert.KernelIdeal.S2000000x32 .f32) :
    Cert.KernelIdeal.KValue.segSum x4 h = Cert.ReferenceIdeal.RefValue.segSum x4 h := rfl

/-- The edge kernel's output array on the host-prepared operands is the reference's edge network on the arguments. -/
theorem edge_rows (x0 : FVec Ideal Cert.KernelIdeal.S100000x32 .f32) (x1 : FVec Ideal Cert.KernelIdeal.S50000x32 .f32) (x2 : FVec Ideal Cert.KernelIdeal.S2000000x8 .f32)
    (x3 x4 : IVec Cert.KernelIdeal.S2000000 32) (x5 : FVec Ideal Cert.KernelIdeal.S72x64 .f32) (x6 : FVec Ideal Cert.KernelIdeal.S64 .f32) (x7 : FVec Ideal Cert.KernelIdeal.S64x32 .f32)
    (x8 : FVec Ideal Cert.KernelIdeal.S32 .f32)
    (h0 : (Cert.KernelIdeal.S72x64).Slices ![0, 0] Cert.KernelIdeal.S32x64) (h32 : (Cert.KernelIdeal.S72x64).Slices ![32, 0] Cert.KernelIdeal.S32x64)
    (h64 : (Cert.KernelIdeal.S72x64).Slices ![64, 0] Cert.KernelIdeal.S8x64) :
    Cert.KernelIdeal.Region0.edgeArr (Cert.KernelIdeal.KValue.gatherU x0 x4) (Cert.KernelIdeal.KValue.gatherV x1 x3) x2
        (extractStridedSlice Cert.KernelIdeal.S32x64 ![0, 0] x5 h0) (extractStridedSlice Cert.KernelIdeal.S32x64 ![32, 0] x5 h32)
        (extractStridedSlice Cert.KernelIdeal.S8x64 ![64, 0] x5 h64) x6 x7 x8
      = Cert.ReferenceIdeal.RefValue.edgeRef (Cert.ReferenceIdeal.RefValue.gatherU x0 x4) (Cert.ReferenceIdeal.RefValue.gatherV x1 x3) x2 x5 x6 x7 x8 := by
  rw [gatherU_eq, gatherV_eq]
  generalize Cert.ReferenceIdeal.RefValue.gatherU x0 x4 = Ug
  generalize Cert.ReferenceIdeal.RefValue.gatherV x1 x3 = Vg
  funext i
  obtain ⟨e, c, rfl⟩ : ∃ (e : Fin 2000000) (c : Fin 32), i = ix2 e c := ⟨i 0, i 1, eq_ix2 i⟩
  rw [Cert.ReferenceIdeal.RefValue.edgeRef_apply]
  have s0 : (fun (k : Fin 32) (j : Fin 64) => extractStridedSlice Cert.KernelIdeal.S32x64 ![0, 0] x5 h0 (ix2 k j))
      = fun k j => x5 (ix2 (⟨k.val, by have := k.isLt; omega⟩ : Fin 72) j) :=
    funext fun k => funext fun j => slice2_axis0_apply 0 x5 h0 k j ⟨k.val, by have := k.isLt; omega⟩ (Nat.zero_add _).symm
  have s32 : (fun (k : Fin 32) (j : Fin 64) => extractStridedSlice Cert.KernelIdeal.S32x64 ![32, 0] x5 h32 (ix2 k j))
      = fun k j => x5 (ix2 (⟨32 + k.val, by have := k.isLt; omega⟩ : Fin 72) j) :=
    funext fun k => funext fun j => slice2_axis0_apply 32 x5 h32 k j ⟨32 + k.val, by have := k.isLt; omega⟩ rfl
  have s64 : (fun (k : Fin 8) (j : Fin 64) => extractStridedSlice Cert.KernelIdeal.S8x64 ![64, 0] x5 h64 (ix2 k j))
      = fun k j => x5 (ix2 (⟨64 + k.val, by have := k.isLt; omega⟩ : Fin 72) j) :=
    funext fun k => funext fun j => slice2_axis0_apply 64 x5 h64 k j ⟨64 + k.val, by have := k.isLt; omega⟩ rfl
  show edgeK (fun k => Ug (ix2 e k)) (fun k => Vg (ix2 e k)) (fun k => x2 (ix2 e k))
      (fun (k : Fin 32) (j : Fin 64) => extractStridedSlice Cert.KernelIdeal.S32x64 ![0, 0] x5 h0 (ix2 k j))
      (fun (k : Fin 32) (j : Fin 64) => extractStridedSlice Cert.KernelIdeal.S32x64 ![32, 0] x5 h32 (ix2 k j))
      (fun (k : Fin 8) (j : Fin 64) => extractStridedSlice Cert.KernelIdeal.S8x64 ![64, 0] x5 h64 (ix2 k j))
      (fun j => x6 (ix1 j)) (fun j c => x7 (ix2 j c)) (fun c => x8 (ix1 c)) c = _
  rw [s0, s32, s64]
  exact edge_eq (fun k => Ug (ix2 e k)) (fun k => Vg (ix2 e k)) (fun k => x2 (ix2 e k)) (fun k j => x5 (ix2 k j))
    (fun j => x6 (ix1 j)) (fun j c => x7 (ix2 j c)) (fun c => x8 (ix1 c)) c

/-- The kernel's result function is the reference's. -/
theorem fun_eq (x0 : FVec Ideal Cert.KernelIdeal.S100000x32 .f32) (x1 : FVec Ideal Cert.KernelIdeal.S50000x32 .f32) (x2 : FVec Ideal Cert.KernelIdeal.S2000000x8 .f32)
    (x3 x4 : IVec Cert.KernelIdeal.S2000000 32) (x5 : FVec Ideal Cert.KernelIdeal.S72x64 .f32) (x6 : FVec Ideal Cert.KernelIdeal.S64 .f32) (x7 : FVec Ideal Cert.KernelIdeal.S64x32 .f32)
    (x8 : FVec Ideal Cert.KernelIdeal.S32 .f32)
    (x9 : FVec Ideal Cert.KernelIdeal.S64x64 .f32) (x10 : FVec Ideal Cert.KernelIdeal.S64 .f32) (x11 : FVec Ideal Cert.KernelIdeal.S64x32 .f32)
    (x12 : FVec Ideal Cert.KernelIdeal.S32 .f32) (x13 : FVec Ideal Cert.KernelIdeal.S32x1 .f32) (x14 : FVec Ideal Cert.KernelIdeal.S1 .f32) :
    Cert.KernelIdeal.KValue.kernelFun x0 x1 x2 x3 x4 x5 x6 x7 x8 x9 x10 x11 x12 x13 x14
      = Cert.ReferenceIdeal.RefValue.refFun x0 x1 x2 x3 x4 x5 x6 x7 x8 x9 x10 x11 x12 x13 x14 := by
  funext i
  obtain ⟨p, u, rfl⟩ : ∃ (p : Fin 100000) (u : Fin 1), i = ix2 p u := ⟨i 0, i 1, eq_ix2 i⟩
  obtain rfl : u = 0 := Subsingleton.elim _ _
  rw [Cert.ReferenceIdeal.RefValue.refFun_apply]
  unfold Cert.KernelIdeal.KValue.kernelFun
  rw [edge_rows x0 x1 x2 x3 x4 x5 x6 x7 x8, segSum_eq]
  generalize Cert.ReferenceIdeal.RefValue.segSum x4 (Cert.ReferenceIdeal.RefValue.edgeRef (Cert.ReferenceIdeal.RefValue.gatherU x0 x4) (Cert.ReferenceIdeal.RefValue.gatherV x1 x3) x2 x5 x6 x7 x8) = agg
  have s0 : ∀ h0 : (Cert.KernelIdeal.S64x64).Slices ![0, 0] Cert.KernelIdeal.S32x64, (fun (k : Fin 32) (j : Fin 64) => extractStridedSlice Cert.KernelIdeal.S32x64 ![0, 0] x9 h0 (ix2 k j))
      = fun k j => x9 (ix2 (⟨k.val, by have := k.isLt; omega⟩ : Fin 64) j) := fun h0 =>
    funext fun k => funext fun j => slice2_axis0_apply 0 x9 h0 k j ⟨k.val, by have := k.isLt; omega⟩ (Nat.zero_add _).symm
  have s32 : ∀ h32 : (Cert.KernelIdeal.S64x64).Slices ![32, 0] Cert.KernelIdeal.S32x64, (fun (k : Fin 32) (j : Fin 64) => extractStridedSlice Cert.KernelIdeal.S32x64 ![32, 0] x9 h32 (ix2 k j))
      = fun k j => x9 (ix2 (⟨32 + k.val, by have := k.isLt; omega⟩ : Fin 64) j) := fun h32 =>
    funext fun k => funext fun j => slice2_axis0_apply 32 x9 h32 k j ⟨32 + k.val, by have := k.isLt; omega⟩ rfl
  show Ideal.logistic (nodeK (fun k => x0 (ix2 p k)) (fun k => agg (ix2 p k))
      (fun (k : Fin 32) (j : Fin 64) => extractStridedSlice Cert.KernelIdeal.S32x64 ![0, 0] x9 _ (ix2 k j))
      (fun (k : Fin 32) (j : Fin 64) => extractStridedSlice Cert.KernelIdeal.S32x64 ![32, 0] x9 _ (ix2 k j))
      (fun j => x10 (ix1 j)) (fun j c => x11 (ix2 j c)) (fun c => x12 (ix1 c)) (fun k => x13 (ix2 k (0 : Fin 1)))
      (x14 (ix1 (0 : Fin 1)))) = _
  rw [s0, s32]
  exact congrArg Ideal.logistic (node_eq (fun k => x0 (ix2 p k)) (fun k => agg (ix2 p k)) (fun k j => x9 (ix2 k j))
    (fun j => x10 (ix1 j)) (fun j c => x11 (ix2 j c)) (fun c => x12 (ix1 c)) (fun k => x13 (ix2 k (0 : Fin 1))) (x14 (ix1 (0 : Fin 1))))

end Cert.Bridge

end
-- ==== Proof.lean ====
/-
  The certificate of the two-kernel graph network against its reference.

  The kernel program gathers the end-node features of every edge, runs the edge network in a pipelined kernel over
  blocks of 10000 edges, adds each edge's output into its destination node's row, and runs the node network in a second
  pipelined kernel over blocks of 5000 nodes; the reference does the same with plain array operations. At the extended
  reals the two results are one function of the arguments: the kernels multiply by row blocks of the first-layer weight
  matrices where the reference multiplies the side-by-side features by the whole matrices, and a sum over the joined
  columns is the sum of the blocks' sums; changes of float format are the identity; the kernel's logistic operation is
  the reference's 1 / (1 + exp(−y)). Only associativity and commutativity of addition are used, so nothing depends on
  the inputs being finite. The three frames are the generated runs; the idealization rewrote nothing.
-/
import proofs.«181587_j81475529605800_2_alg».proof.Defs
import proofs.«181587_j81475529605800_2_alg».proof.Proof.Gen.Kernel
import proofs.«181587_j81475529605800_2_alg».proof.Proof.Gen.Kernel.Frame
import proofs.«181587_j81475529605800_2_alg».proof.Proof.Gen.KernelIdeal
import proofs.«181587_j81475529605800_2_alg».proof.Proof.Gen.KernelIdeal.Frame
import proofs.«181587_j81475529605800_2_alg».proof.Proof.Gen.ReferenceIdeal
import proofs.«181587_j81475529605800_2_alg».proof.Proof.Gen.Pre_finite_inputs
import proofs.«181587_j81475529605800_2_alg».proof.Proof.Gen.ReferenceIdeal.Run
import proofs.«181587_j81475529605800_2_alg».proof.Proof.Gen.ReferenceIdeal.Read
import proofs.«181587_j81475529605800_2_alg».proof.Proof.KernelRun
import proofs.«181587_j81475529605800_2_alg».proof.Proof.KernelValue
import proofs.«181587_j81475529605800_2_alg».proof.Proof.RefValue
import proofs.«181587_j81475529605800_2_alg».proof.Proof.Bridge

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result buffer ends at the kernel's function of its arguments, the reference's at
    the reference's function of arguments that agree with them, and the two functions are one. -/
theorem algebraic : Cert.algebraic_KernelIdeal_ReferenceIdeal := by
  intro m ρ m' ρ' _ hagree
  refine ⟨fun c => Cert.KernelIdeal.KValue.kernelFun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KValue.value m ρ c), (h c).2⟩) (Cert.KernelIdeal.RunValue.run m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7, e8, e9, e10, e11, e12, e13, e14⟩ := hagree c
    rw [e0, e1, e2, e3, e4, e5, e6, e7, e8, e9, e10, e11, e12, e13, e14]
    exact (Cert.Bridge.fun_eq _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
